-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x600000 : Shape := ⟨2, ![2, 600000]⟩
abbrev S50000 : Shape := ⟨1, ![50000]⟩
abbrev S10000x128 : Shape := ⟨2, ![10000, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg10 : FVec F S10x128 .f32) (main_arg11 : FVec F S10 .f32) (main_v33 : IVec S_ 1) : IVec S_ 1 :=
  let main_v34 : FVec F S10x128 .f32 := Host.absf main_arg10
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S10 .f32 := Host.absf main_arg11
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg7 : FVec F S128x128 .f32) (main_arg8 : FVec F S128 .f32) (main_arg9 : FVec F S128x128 .f32) (main_arg10 : FVec F S10x128 .f32) (main_arg11 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_v33

def fn {F : FTy → Type} [FloatOps F] (main_arg0 : IVec S50000x16 32) (main_arg1 : IVec S2x600000 32) (main_arg2 : IVec S50000 32) (main_arg3 : FVec F S10000x128 .f32) (main_arg4 : FVec F S128x128 .f32) (main_arg5 : FVec F S128 .f32) (main_arg6 : FVec F S128x128 .f32) (main_arg7 : FVec F S128x128 .f32) (main_arg8 : FVec F S128 .f32) (main_arg9 : FVec F S128x128 .f32) (main_arg10 : FVec F S10x128 .f32) (main_arg11 : FVec F S10 .f32) : IVec S_ 1 :=
  let main_v0 : FVec F S10000x128 .f32 := Host.absf main_arg3
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S50000x16 : Shape := ⟨2, ![50000, 16]⟩
abbrev S2x600000 : Shape := ⟨2, ![2, 600000]⟩
abbrev S50000 : Shape := ⟨1, ![50000]⟩
abbrev S10000x128 : Shape := ⟨2, ![10000, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x600000 : Shape := ⟨2, ![1, 600000]⟩
abbrev S600000 : Shape := ⟨1, ![600000]⟩
abbrev S_ : Shape := ⟨0, ![]⟩
abbrev S50000x16x1 : Shape := ⟨3, ![50000, 16, 1]⟩
abbrev S50000x16x128 : Shape := ⟨3, ![50000, 16, 128]⟩
abbrev S50000x128 : Shape := ⟨2, ![50000, 128]⟩
abbrev S1000x16 : Shape := ⟨2, ![1000, 16]⟩
abbrev S1000x16x128 : Shape := ⟨3, ![1000, 16, 128]⟩
abbrev S1000x128 : Shape := ⟨2, ![1000, 128]⟩
abbrev S1000x16x1 : Shape := ⟨3, ![1000, 16, 1]⟩
abbrev S1000x1 : Shape := ⟨2, ![1000, 1]⟩
abbrev S600000x1 : Shape := ⟨2, ![600000, 1]⟩
abbrev S50000x1 : Shape := ⟨2, ![50000, 1]⟩
abbrev S600000x128 : Shape := ⟨2, ![600000, 128]⟩
abbrev S5000x128 : Shape := ⟨2, ![5000, 128]⟩
abbrev S1x128 : Shape := ⟨2, ![1, 128]⟩
abbrev S512x128 : Shape := ⟨2, ![512, 128]⟩
abbrev S512x1 : Shape := ⟨2, ![512, 1]⟩
abbrev S128x10 : Shape := ⟨2, ![128, 10]⟩
abbrev S512x10 : Shape := ⟨2, ![512, 10]⟩
abbrev S1x10 : Shape := ⟨2, ![1, 10]⟩

abbrev nBuf : Space → Nat
  | .hbm => 90
  | .vmem => 28
  | .smem => 0
  | _ => 0

abbrev bufTy : (tb : Table) → Fin (tcTables nBuf tb) → BufTy
  | .hbm, ⟨0, _⟩ => ⟨S50000x16, .i32⟩
  | .hbm, ⟨1, _⟩ => ⟨S2x600000, .i32⟩
  | .hbm, ⟨2, _⟩ => ⟨S50000, .i32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S10x128, .f32⟩
  | .hbm, ⟨11, _⟩ => ⟨S10, .f32⟩
  | .hbm, ⟨12, _⟩ => ⟨S1x600000, .i32⟩
  | .hbm, ⟨13, _⟩ => ⟨S600000, .i32⟩
  | .hbm, ⟨14, _⟩ => ⟨S1x600000, .i32⟩
  | .hbm, ⟨15, _⟩ => ⟨S600000, .i32⟩
  | .hbm, ⟨16, _⟩ => ⟨S_, .i32⟩
  | .hbm, ⟨17, _⟩ => ⟨S50000x16, .i32⟩
  | .hbm, ⟨18, _⟩ => ⟨S50000x16, .i1⟩
  | .hbm, ⟨19, _⟩ => ⟨S_, .i32⟩
  | .hbm, ⟨20, _⟩ => ⟨S50000x16, .i32⟩
  | .hbm, ⟨21, _⟩ => ⟨S50000x16, .i32⟩
  | .hbm, ⟨22, _⟩ => ⟨S50000x16, .i32⟩
  | .hbm, ⟨23, _⟩ => ⟨S50000x16x1, .i32⟩
  | .hbm, ⟨24, _⟩ => ⟨S50000x16x128, .f32⟩
  | .hbm, ⟨25, _⟩ => ⟨S50000x128, .f32⟩
  | .hbm, ⟨26, _⟩ => ⟨S_, .f32⟩
  | .hbm, ⟨27, _⟩ => ⟨S600000x1, .f32⟩
  | .hbm, ⟨28, _⟩ => ⟨S_, .f32⟩
  | .hbm, ⟨29, _⟩ => ⟨S50000x1, .f32⟩
  | .hbm, ⟨30, _⟩ => ⟨S600000x1, .i32⟩
  | .hbm, ⟨31, _⟩ => ⟨S50000x1, .f32⟩
  | .hbm, ⟨32, _⟩ => ⟨S_, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S50000x128, .f32⟩
  | .hbm, ⟨47, _⟩ => ⟨S600000x1, .i32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S128x128, .f32⟩
  | .hbm, ⟨52, _⟩ => ⟨S128x128, .f32⟩
  | .hbm, ⟨53, _⟩ => ⟨S50000x128, .f32⟩
  | .hbm, ⟨54, _⟩ => ⟨S_, .i32⟩
  | .hbm, ⟨55, _⟩ => ⟨S600000, .i32⟩
  | .hbm, ⟨56, _⟩ => ⟨S600000, .i1⟩
  | .hbm, ⟨57, _⟩ => ⟨S_, .i32⟩
  | .hbm, ⟨58, _⟩ => ⟨S600000, .i32⟩
  | .hbm, ⟨59, _⟩ => ⟨S600000, .i32⟩
  | .hbm, ⟨60, _⟩ => ⟨S600000, .i32⟩
  | .hbm, ⟨61, _⟩ => ⟨S600000x1, .i32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S128x128, .f32⟩
  | .hbm, ⟨71, _⟩ => ⟨S50000x128, .f32⟩
  | .hbm, ⟨72, _⟩ => ⟨S_, .f32⟩
  | .hbm, ⟨73, _⟩ => ⟨S512x128, .f32⟩
  | .hbm, ⟨74, _⟩ => ⟨S50000x1, .i32⟩
  | .hbm, ⟨75, _⟩ => ⟨S512x128, .f32⟩
  | .hbm, ⟨76, _⟩ => ⟨S_, .f32⟩
  | .hbm, ⟨77, _⟩ => ⟨S50000x1, .f32⟩
  | .hbm, ⟨78, _⟩ => ⟨S_, .f32⟩
  | .hbm, ⟨79, _⟩ => ⟨S512x1, .f32⟩
  | .hbm, ⟨80, _⟩ => ⟨S50000x1, .i32⟩
  | .hbm, ⟨81, _⟩ => ⟨S512x1, .f32⟩
  | .hbm, ⟨82, _⟩ => ⟨S_, .f32⟩
  | .hbm, ⟨83, _⟩ => ⟨S_, .f32⟩
  | .hbm, ⟨84, _⟩ => ⟨S512x1, .f32⟩
  | .hbm, ⟨85, _⟩ => ⟨S512x1, .f32⟩
  | .hbm, ⟨86, _⟩ => ⟨S512x128, .f32⟩
  | .hbm, ⟨87, _⟩ => ⟨S512x128, .f32⟩
  | .hbm, ⟨88, _⟩ => ⟨S128x10, .f32⟩
  | .hbm, ⟨89, _⟩ => ⟨S512x10, .f32⟩
  | .local _ .vmem, ⟨0, _⟩ => ⟨S1000x16, .i32⟩
  | .local _ .vmem, ⟨1, _⟩ => ⟨S1000x16, .i32⟩
  | .local _ .vmem, ⟨2, _⟩ => ⟨S1000x16x128, .f32⟩
  | .local _ .vmem, ⟨3, _⟩ => ⟨S1000x16x128, .f32⟩
  | .local _ .vmem, ⟨4, _⟩ => ⟨S1000x128, .f32⟩
  | .local _ .vmem, ⟨5, _⟩ => ⟨S1000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S512x128, .f32⟩
  | .local _ .vmem, ⟨25, _⟩ => ⟨S128x10, .f32⟩
  | .local _ .vmem, ⟨26, _⟩ => ⟨S10, .f32⟩
  | .local _ .vmem, ⟨27, _⟩ => ⟨S512x10, .f32⟩
  | _, _ => ⟨S50000x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_cst_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem1_0 : DmaSem sig := 25
abbrev cc3_sem2_0 : DmaSem sig := 26
abbrev cc3_sem3_0 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  inb_S1000x16_S1000x16_0_0 : ∀ a, (![0, 0] : Fin 2 → Nat) a + S1000x16.size a ≤ S1000x16.size a
  h_S1000x16 : 0 < S1000x16.numel
  natLt_1_32 : 1 < 32
  shapeCasts_S1000x16_S1000x16x1 : S1000x16.ShapeCasts S1000x16x1
  inb_S1000x16x128_S1000x16x128_0_0_0 : ∀ a, (![0, 0, 0] : Fin 3 → Nat) a + S1000x16x128.size a ≤ S1000x16x128.size a
  h_S1000x16x128 : 0 < S1000x16x128.numel
  shapeCasts_S1000x16x128_S1000x16x128 : S1000x16x128.ShapeCasts S1000x16x128
  broadcasts_S1000x16x1_S1000x16x128 : S1000x16x1.Broadcasts S1000x16x128
  reduces_S1000x16x128_S1000x128 : S1000x16x128.Reduces [1] S1000x128
  reduces_S1000x16x1_S1000x1 : S1000x16x1.Reduces [1] S1000x1
  broadcasts_S1000x1_S1000x128 : S1000x1.Broadcasts S1000x128
  inb_S1000x128_S1000x128_0_0 : ∀ a, (![0, 0] : Fin 2 → Nat) a + S1000x128.size a ≤ S1000x128.size a
  h_S1000x128 : 0 < S1000x128.numel
  bcast_S_S600000x1 : S_.BroadcastsInDim S600000x1 (![] : Fin 0 → Fin S600000x1.rank)
  bcast_S_S50000x1 : S_.BroadcastsInDim S50000x1 (![] : Fin 0 → Fin S50000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  transposes_S10x128_S128x10_1_0 : S10x128.Transposes [1, 0] S128x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S10000x128_S50000x16x1_S50000x16x128_2_0_n_n_0_2_1128_wf : GatherDims.WF S10000x128 S50000x16x1 S50000x16x128 [2] [0] [] [0] [] 2 ![1, 128]
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16.size a ≤ S50000x16.size a
  hwx0_0 : ∀ i : grid0.Coords, EltTy.bits .i32 = 32 ∨ (Rect.block (s := S50000x16) S1000x16.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x16x128.size a ≤ S50000x16x128.size a
  hwx0_1 : ∀ i : grid0.Coords, EltTy.bits .f32 = 32 ∨ (Rect.block (s := S50000x16x128) S1000x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10.size a ≤ S10.size a
  hwx3_2 : ∀ i : grid3.Coords, EltTy.bits .f32 = 32 ∨ (Rect.block (s := S10) S10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x10.size a ≤ S512x10.size a
  hwx3_3 : ∀ i : grid3.Coords, EltTy.bits .f32 = 32 ∨ (Rect.block (s := S512x10) S512x10.size (cc3_transform_3 i) (hinb3_3 i)).WholeWords (EltTy.packing .f32)

variable [Facts₀]

def gather_S10000x128_S50000x16x1_S50000x16x128_2_0_n_n_0_2_1128 : GatherDims S10000x128 S50000x16x1 S50000x16x128 where
  offsetDims := [2]
  collapsedSliceDims := [0]
  operandBatchingDims := []
  startIndicesBatchingDims := []
  startIndexMap := [0]
  indexVectorDim := 2
  sliceSizes := ![1, 128]
  wf := gather_S10000x128_S50000x16x1_S50000x16x128_2_0_n_n_0_2_1128_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S1000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1000x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v57) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S512x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x16 : Shape := ⟨2, ![50000, 16]⟩
abbrev S2x600000 : Shape := ⟨2, ![2, 600000]⟩
abbrev S50000 : Shape := ⟨1, ![50000]⟩
abbrev S10000x128 : Shape := ⟨2, ![10000, 128]⟩
abbrev S128x128 : Shape := ⟨2, ![128, 128]⟩
abbrev S128 : Shape := ⟨1, ![128]⟩
abbrev S10x128 : Shape := ⟨2, ![10, 128]⟩
abbrev S10 : Shape := ⟨1, ![10]⟩
abbrev S1x600000 : Shape := ⟨2, ![1, 600000]⟩
abbrev S600000 : Shape := ⟨1, ![600000]⟩
abbrev S_ : Shape := ⟨0, ![]⟩
abbrev S50000x16x1 : Shape := ⟨3, ![50000, 16, 1]⟩
abbrev S50000x16x128 : Shape := ⟨3, ![50000, 16, 128]⟩
abbrev S50000x128 : Shape := ⟨2, ![50000, 128]⟩
abbrev S50000x1 : Shape := ⟨2, ![50000, 1]⟩
abbrev S600000x1 : Shape := ⟨2, ![600000, 1]⟩
abbrev S600000x128 : Shape := ⟨2, ![600000, 128]⟩
abbrev S1x128 : Shape := ⟨2, ![1, 128]⟩
abbrev S512x128 : Shape := ⟨2, ![512, 128]⟩
abbrev S512x1 : Shape := ⟨2, ![512, 1]⟩
abbrev S128x10 : Shape := ⟨2, ![128, 10]⟩
abbrev S512x10 : Shape := ⟨2, ![512, 10]⟩
abbrev S1x10 : Shape := ⟨2, ![1, 10]⟩

abbrev nBuf : Space → Nat
  | .hbm => 135
  | .vmem => 0
  | .smem => 0
  | _ => 0

abbrev hbmTy0_0 (i : Nat) : BufTy := match i % 128 with
  | 0 => ⟨S50000x16, .i32⟩
  | 1 => ⟨S2x600000, .i32⟩
  | 2 => ⟨S50000, .i32⟩
  | 3 => ⟨S10000x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S128x128, .f32⟩
  | 10 => ⟨S10x128, .f32⟩
  | 11 => ⟨S10, .f32⟩
  | 12 => ⟨S1x600000, .i32⟩
  | 13 => ⟨S600000, .i32⟩
  | 14 => ⟨S1x600000, .i32⟩
  | 15 => ⟨S600000, .i32⟩
  | 16 => ⟨S_, .i32⟩
  | 17 => ⟨S50000x16, .i32⟩
  | 18 => ⟨S50000x16, .i1⟩
  | 19 => ⟨S_, .i32⟩
  | 20 => ⟨S50000x16, .i32⟩
  | 21 => ⟨S50000x16, .i32⟩
  | 22 => ⟨S50000x16, .i32⟩
  | 23 => ⟨S50000x16x1, .i32⟩
  | 24 => ⟨S50000x16x128, .f32⟩
  | 25 => ⟨S_, .i32⟩
  | 26 => ⟨S50000x16, .i32⟩
  | 27 => ⟨S50000x16, .i1⟩
  | 28 => ⟨S50000x16x1, .i1⟩
  | 29 => ⟨S50000x16x1, .f32⟩
  | 30 => ⟨S50000x16x128, .f32⟩
  | 31 => ⟨S50000x16x128, .f32⟩
  | 32 => ⟨S_, .f32⟩
  | 33 => ⟨S50000x128, .f32⟩
  | 34 => ⟨S_, .f32⟩
  | 35 => ⟨S50000x1, .f32⟩
  | 36 => ⟨S_, .f32⟩
  | 37 => ⟨S_, .f32⟩
  | 38 => ⟨S50000x1, .f32⟩
  | 39 => ⟨S50000x1, .f32⟩
  | 40 => ⟨S50000x128, .f32⟩
  | 41 => ⟨S50000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S_, .f32⟩
  | 52 => ⟨S50000x128, .f32⟩
  | 53 => ⟨S600000x1, .i32⟩
  | 54 => ⟨S50000x128, .f32⟩
  | 55 => ⟨S_, .f32⟩
  | 56 => ⟨S600000x1, .f32⟩
  | 57 => ⟨S_, .f32⟩
  | 58 => ⟨S50000x1, .f32⟩
  | 59 => ⟨S600000x1, .i32⟩
  | 60 => ⟨S50000x1, .f32⟩
  | 61 => ⟨S_, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S128x128, .f32⟩
  | 68 => ⟨S50000x128, .f32⟩
  | 69 => ⟨S1x128, .f32⟩
  | 70 => ⟨S50000x128, .f32⟩
  | 71 => ⟨S50000x128, .f32⟩
  | 72 => ⟨S128x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S_, .f32⟩
  | 88 => ⟨S50000x128, .f32⟩
  | 89 => ⟨S600000x1, .i32⟩
  | 90 => ⟨S50000x128, .f32⟩
  | 91 => ⟨S_, .f32⟩
  | 92 => ⟨S600000x1, .f32⟩
  | 93 => ⟨S_, .f32⟩
  | 94 => ⟨S50000x1, .f32⟩
  | 95 => ⟨S600000x1, .i32⟩
  | 96 => ⟨S50000x1, .f32⟩
  | 97 => ⟨S_, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S128x128, .f32⟩
  | 104 => ⟨S50000x128, .f32⟩
  | 105 => ⟨S1x128, .f32⟩
  | 106 => ⟨S50000x128, .f32⟩
  | 107 => ⟨S50000x128, .f32⟩
  | 108 => ⟨S128x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .f32⟩
  | 115 => ⟨S512x128, .f32⟩
  | 116 => ⟨S50000x1, .i32⟩
  | 117 => ⟨S512x128, .f32⟩
  | 118 => ⟨S_, .f32⟩
  | 119 => ⟨S50000x1, .f32⟩
  | 120 => ⟨S_, .f32⟩
  | 121 => ⟨S512x1, .f32⟩
  | 122 => ⟨S50000x1, .i32⟩
  | 123 => ⟨S512x1, .f32⟩
  | 124 => ⟨S_, .f32⟩
  | 125 => ⟨S_, .f32⟩
  | 126 => ⟨S512x1, .f32⟩
  | 127 => ⟨S512x1, .f32⟩
  | _ => ⟨S50000x16, .i32⟩

abbrev hbmTy0_1 (i : Nat) : BufTy := match i % 128 with
  | 0 => ⟨S512x128, .f32⟩
  | 1 => ⟨S512x128, .f32⟩
  | 2 => ⟨S128x10, .f32⟩
  | 3 => ⟨S512x10, .f32⟩
  | 4 => ⟨S1x10, .f32⟩
  | 5 => ⟨S512x10, .f32⟩
  | 6 => ⟨S512x10, .f32⟩
  | _ => ⟨S50000x16, .i32⟩

abbrev hbmTy (i : Nat) : BufTy := match i / 128 with
  | 0 => hbmTy0_0 i
  | 1 => hbmTy0_1 i
  | _ => ⟨S50000x16, .i32⟩

abbrev bufTy : (tb : Table) → Fin (tcTables nBuf tb) → BufTy
  | .hbm, ⟨i, _⟩ => hbmTy i
  | _, _ => ⟨S50000x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_cst_8 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call2_cst : Ref sig .tc := ⟨.hbm, 75, rfl⟩
abbrev main_call2_v0 : Ref sig .tc := ⟨.hbm, 76, rfl⟩
abbrev main_v47 : Ref sig .tc := ⟨.hbm, 77, rfl⟩
abbrev main_c_10 : Ref sig .tc := ⟨.hbm, 78, rfl⟩
abbrev main_v48 : Ref sig .tc := ⟨.hbm, 79, rfl⟩
abbrev main_v49 : Ref sig .tc := ⟨.hbm, 80, rfl⟩
abbrev main_c_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_13 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_15 : Ref sig .tc := ⟨.hbm, 97, rfl⟩
abbrev main_call3_v0 : Ref sig .tc := ⟨.hbm, 98, rfl⟩
abbrev main_call3_v1 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call4_cst : Ref sig .tc := ⟨.hbm, 111, rfl⟩
abbrev main_call4_v0 : Ref sig .tc := ⟨.hbm, 112, rfl⟩
abbrev main_v73 : Ref sig .tc := ⟨.hbm, 113, rfl⟩
abbrev main_cst_16 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_17 : Ref sig .tc := ⟨.hbm, 118, rfl⟩
abbrev main_v77 : Ref sig .tc := ⟨.hbm, 119, rfl⟩
abbrev main_cst_18 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_19 : Ref sig .tc := ⟨.hbm, 124, rfl⟩
abbrev main_call5_v0 : Ref sig .tc := ⟨.hbm, 125, rfl⟩
abbrev main_call5_v1 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000x16 : S_.BroadcastsInDim S50000x16 (![] : Fin 0 → Fin S50000x16.rank)
  bcast_S50000x16_S50000x16x1_0_1 : S50000x16.BroadcastsInDim S50000x16x1 (![0, 1] : Fin 2 → Fin S50000x16x1.rank)
  bcast_S50000x16x1_S50000x16x128_0_1_2 : S50000x16x1.BroadcastsInDim S50000x16x128 (![0, 1, 2] : Fin 3 → Fin S50000x16x128.rank)
  reducesTo_S50000x16x128_S50000x128_d1 : S50000x16x128.ReducesTo [1] S50000x128
  h_S_ : 0 < S_.numel
  reducesTo_S50000x16x1_S50000x1_d1 : S50000x16x1.ReducesTo [1] S50000x1
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  transposes_S10x128_S128x10_1_0 : S10x128.Transposes [1, 0] S128x10
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S10000x128_S50000x16x1_S50000x16x128_2_0_n_n_0_2_1128_wf : GatherDims.WF S10000x128 S50000x16x1 S50000x16x128 [2] [0] [] [0] [] 2 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512x1_S50000x1_S50000x1_1_0_0_1_wf : ScatterDims.WF S512x1 S50000x1 S50000x1 [1] [0] [0] 1
  dot_S512x128_S128x10_S512x10_1_0_0_1_n_n_wf : DotDims.WF S512x128 S128x10 S512x10 [1] [0] [0] [1] [] []

variable [Facts₀]

def gather_S10000x128_S50000x16x1_S50000x16x128_2_0_n_n_0_2_1128 : GatherDims S10000x128 S50000x16x1 S50000x16x128 where
  offsetDims := [2]
  collapsedSliceDims := [0]
  operandBatchingDims := []
  startIndicesBatchingDims := []
  startIndexMap := [0]
  indexVectorDim := 2
  sliceSizes := ![1, 128]
  wf := gather_S10000x128_S50000x16x1_S50000x16x128_2_0_n_n_0_2_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512x1_S50000x1_S50000x1_1_0_0_1 : ScatterDims S512x1 S50000x1 S50000x1 where
  updateWindowDims := [1]
  insertedWindowDims := [0]
  scatterDimsToOperandDims := [0]
  indexVectorDim := 1
  wf := scatter_S512x1_S50000x1_S50000x1_1_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.RefStages.lean ====
/-
  The reference program cut at the places where the kernel program runs a Pallas region.

  The reference computes, on the host, a bag mean of gathered embedding rows, two graph-convolution layers
  (a neighbour mean, two matrix products, a bias, a positive part), a mean pool over graph ids and a final
  projection.  The kernel program computes the same glue (gathers, scatter-adds, quotients) on the host and the
  four dense pieces in Pallas regions.  Here each dense piece of the reference is restated as ONE function of the
  arrays the corresponding region reads, and each stretch of glue as one function of the array it starts from;
  the reference's stages (the generated read-back module's `val_…`) are these functions composed, by unfolding.
-/
import proofs.«142027_j18442589569633_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe Idealize.SL.Sem

variable {F : FTy → Type} [FloatOps F]

/-- The bag mean: row `r`, column `q` is the sum over the 16 tokens of row `r` of `emb r k q` times the 0/1 weight
    "token `k` of row `r` is not the padding token", divided by the larger of 1 and the number of such tokens. -/
def refBag (tok : (⟨S50000x16, .i32⟩ : BufTy).Contents (Elt F)) (emb : (⟨S50000x16x128, .f32⟩ : BufTy).Contents (Elt F)) :
    (⟨S50000x128, .f32⟩ : BufTy).Contents (Elt F) :=
  Host.divf (Host.reduceAdd (mulf emb (val_main_v15 (F := F) tok)) (val_main_cst (F := F)) reducesTo_S50000x16x128_S50000x128_d1 h_S_)
    (val_main_v20 (F := F) tok)

/-- The neighbour mean: messages `X[src]` summed at `dst`, divided by the larger of 1 and the in-degree. -/
def refAggr (e : (⟨S2x600000, .i32⟩ : BufTy).Contents (Elt F)) (X : (⟨S50000x128, .f32⟩ : BufTy).Contents (Elt F)) :
    (⟨S50000x128, .f32⟩ : BufTy).Contents (Elt F) :=
  Host.divf (Host.scatterAdd scatter_S50000x128_S600000x1_S600000x128_1_0_0_1 (val_main_v29 (F := F)) (val_main_v30 (F := F) e)
      (Host.gather gather_S50000x128_S600000x1_S600000x128_1_0_n_n_0_1_1128 X (val_main_v27 (F := F) e)))
    (val_main_v37 (F := F) e)

/-- One convolution layer's dense part: `max (A·Wl + b + X·Wr) 0`, the weights already transposed. -/
def refSage (A X : (⟨S50000x128, .f32⟩ : BufTy).Contents (Elt F)) (Wl : (⟨S128x128, .f32⟩ : BufTy).Contents (Elt F))
    (b : (⟨S128, .f32⟩ : BufTy).Contents (Elt F)) (Wr : (⟨S128x128, .f32⟩ : BufTy).Contents (Elt F)) :
    (⟨S50000x128, .f32⟩ : BufTy).Contents (Elt F) :=
  maximumf (addf (addf (Host.dotGeneral dot_S50000x128_S128x128_S50000x128_1_0_0_1_n_n none A Wl)
      (broadcastInDim S50000x128 ![0, 1] bcast_S1x128_S50000x128_0_1 (broadcastInDim S1x128 ![1] bcast_S128_S1x128_1 b)))
      (Host.dotGeneral dot_S50000x128_S128x128_S50000x128_1_0_0_1_n_n none X Wr))
    (broadcastInDim S50000x128 ![] bcast_S_S50000x128 (constant S_ .f32 0x00000000#32))

/-- The mean pool: rows of `X` summed per graph id, divided by the larger of 1 and the graph's node count. -/
def refPool (g : (⟨S50000, .i32⟩ : BufTy).Contents (Elt F)) (X : (⟨S50000x128, .f32⟩ : BufTy).Contents (Elt F)) :
    (⟨S512x128, .f32⟩ : BufTy).Contents (Elt F) :=
  Host.divf (Host.scatterAdd scatter_S512x128_S50000x1_S50000x128_1_0_0_1 (val_main_v74 (F := F)) (val_main_v75 (F := F) g) X)
    (val_main_v82 (F := F) g)

/-- The final projection `G·W + b`, the weight already transposed. -/
def refProj (G : (⟨S512x128, .f32⟩ : BufTy).Contents (Elt F)) (W : (⟨S128x10, .f32⟩ : BufTy).Contents (Elt F))
    (b : (⟨S10, .f32⟩ : BufTy).Contents (Elt F)) : (⟨S512x10, .f32⟩ : BufTy).Contents (Elt F) :=
  addf (Host.dotGeneral dot_S512x128_S128x10_S512x10_1_0_0_1_n_n none G W)
    (broadcastInDim S512x10 ![0, 1] bcast_S1x10_S512x10_0_1 (broadcastInDim S1x10 ![1] bcast_S10_S1x10_1 b))

/-- The whole reference as the composition of its pieces. -/
def refAll (x0 : (⟨S50000x16, .i32⟩ : BufTy).Contents (Elt F)) (x1 : (⟨S2x600000, .i32⟩ : BufTy).Contents (Elt F))
    (x2 : (⟨S50000, .i32⟩ : BufTy).Contents (Elt F)) (x3 : (⟨S10000x128, .f32⟩ : BufTy).Contents (Elt F))
    (x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F))
    (x9 : (⟨S128x128, .f32⟩ : BufTy).Contents (Elt F)) (x10 : (⟨S10x128, .f32⟩ : BufTy).Contents (Elt F))
    (x11 : (⟨S10, .f32⟩ : BufTy).Contents (Elt F)) : (⟨S512x10, .f32⟩ : BufTy).Contents (Elt F) :=
  let X0 := refBag x0 (val_main_v10 (F := F) x0 x3)
  let X1 := refSage (refAggr x1 X0) X0 (val_main_v39 (F := F) x4) x5 (val_main_v44 (F := F) x6)
  let X2 := refSage (refAggr x1 X1) X1 (val_main_v65 (F := F) x7) x8 (val_main_v70 (F := F) x9)
  refProj (refPool x2 X2) (val_main_v84 (F := F) x10) x11

theorem v21_eq (x0 : (⟨S50000x16, .i32⟩ : BufTy).Contents (Elt F)) (x3 : (⟨S10000x128, .f32⟩ : BufTy).Contents (Elt F)) :
    val_main_v21 (F := F) x0 x3 = refBag x0 (val_main_v10 (F := F) x0 x3) := rfl

theorem v47_eq (x0 : (⟨S50000x16, .i32⟩ : BufTy).Contents (Elt F)) (x1 : (⟨S2x600000, .i32⟩ : BufTy).Contents (Elt F))
    (x3 : (⟨S10000x128, .f32⟩ : BufTy).Contents (Elt F)) (x4 : (⟨S128x128, .f32⟩ : BufTy).Contents (Elt F))
    (x5 : (⟨S128, .f32⟩ : BufTy).Contents (Elt F)) (x6 : (⟨S128x128, .f32⟩ : BufTy).Contents (Elt F)) :
    val_main_v47 (F := F) x0 x1 x3 x4 x5 x6
      = refSage (refAggr x1 (val_main_v21 (F := F) x0 x3)) (val_main_v21 (F := F) x0 x3) (val_main_v39 (F := F) x4) x5 (val_main_v44 (F := F) x6) := rfl

theorem v73_eq (x0 : (⟨S50000x16, .i32⟩ : BufTy).Contents (Elt F)) (x1 : (⟨S2x600000, .i32⟩ : BufTy).Contents (Elt F))
    (x3 : (⟨S10000x128, .f32⟩ : BufTy).Contents (Elt F)) (x4 : (⟨S128x128, .f32⟩ : BufTy).Contents (Elt F))
    (x5 : (⟨S128, .f32⟩ : BufTy).Contents (Elt F)) (x6 x7 : (⟨S128x128, .f32⟩ : BufTy).Contents (Elt F))
    (x8 : (⟨S128, .f32⟩ : BufTy).Contents (Elt F)) (x9 : (⟨S128x128, .f32⟩ : BufTy).Contents (Elt F)) :
    val_main_v73 (F := F) x0 x1 x3 x4 x5 x6 x7 x8 x9
      = refSage (refAggr x1 (val_main_v47 (F := F) x0 x1 x3 x4 x5 x6)) (val_main_v47 (F := F) x0 x1 x3 x4 x5 x6)
          (val_main_v65 (F := F) x7) x8 (val_main_v70 (F := F) x9) := rfl

/-- The reference's last stage is the composition of the pieces. -/
theorem v88_eq (x0 : (⟨S50000x16, .i32⟩ : BufTy).Contents (Elt F)) (x1 : (⟨S2x600000, .i32⟩ : BufTy).Contents (Elt F))
    (x2 : (⟨S50000, .i32⟩ : BufTy).Contents (Elt F)) (x3 : (⟨S10000x128, .f32⟩ : BufTy).Contents (Elt F))
    (x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F))
    (x9 : (⟨S128x128, .f32⟩ : BufTy).Contents (Elt F)) (x10 : (⟨S10x128, .f32⟩ : BufTy).Contents (Elt F))
    (x11 : (⟨S10, .f32⟩ : BufTy).Contents (Elt F)) :
    val_main_v88 (F := F) x0 x1 x2 x3 x4 x5 x6 x7 x8 x9 x10 x11 = refAll x0 x1 x2 x3 x4 x5 x6 x7 x8 x9 x10 x11 := by
  have e : val_main_v88 (F := F) x0 x1 x2 x3 x4 x5 x6 x7 x8 x9 x10 x11
      = refProj (refPool x2 (val_main_v73 (F := F) x0 x1 x3 x4 x5 x6 x7 x8 x9)) (val_main_v84 (F := F) x10) x11 := rfl
  rw [e, v73_eq, v47_eq, v21_eq]; rfl

end Cert.ReferenceIdeal.RefValue

end
-- ==== Proof.KRun.lean ====
/-
  The kernel program's run with its RESULT named.

  The program is four Pallas regions among stretches of host operations.  Its run is a chain of segments, each
  entered from the buffer contents the previous one leaves; the contents after the last region are a fold over the
  launch memory: a host stretch applies its operations, a region replaces its arrays by what its write-backs leave.
  The same chain that shows the arguments unchanged also shows the result buffer at that fold's value; this module
  states the run with that extra conjunct, so that the value can then be computed region by region.
-/
import proofs.«142027_j18442589569633_1_alg».proof.Proof.Gen.KernelIdeal.Frame

set_option maxRecDepth 16384

noncomputable section

namespace Cert.KernelIdeal.Valued

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    contents the segment chain leaves in it and every argument array as launched. -/
theorem run_valued : θ_run defs (onTc (τ := τ) (main (F := F))) ⟨m, fun _ => 0, ρ⟩ (fun r => ∀ c : Dev nD,
      r.2.mem ((c.tc : Thread nD τ).loc main_v58) = W12 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v58 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Valued

end
-- ==== Proof.KGlue.lean ====
/-
  The kernel program's host glue, one stretch of host operations at a time.

  Between its Pallas regions the kernel program runs the same host operations as the reference: the edge list cut into
  source and destination ids, the embedding gather, the neighbour mean (a gather at the sources, a scatter-add at the
  destinations, a quotient by the clipped in-degree), the mean pool and the weights' transposes.  Each lemma reads one
  buffer after one stretch, from ANY contents `W` before it, as the reference's stage of the buffers the stretch
  started from; a buffer the stretch does not write keeps its contents.
-/
import proofs.«142027_j18442589569633_1_alg».proof.Proof.Gen.KernelIdeal.Launch
import proofs.«142027_j18442589569633_1_alg».proof.Proof.RefStages
import Idealize.ShloMosaic.Lib.StableHlo.Run

set_option maxRecDepth 16384

noncomputable section

namespace Cert.KernelIdeal.Glue

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

/-! ## Before region 0: the edge ids and the embedding gather -/

theorem s0_v10 : after hostOps0 W (Proc.devRef .tc main_v10)
    = Cert.ReferenceIdeal.Read.val_main_v10 (F := F) (W (Proc.devRef .tc main_arg0)) (W (Proc.devRef .tc main_arg3)) := by
  after_results
  rfl
theorem s0_v1 : after hostOps0 W (Proc.devRef .tc main_v1) = Cert.ReferenceIdeal.Read.val_main_v1 (F := F) (W (Proc.devRef .tc main_arg1)) := by
  after_results
  rfl
theorem s0_v3 : after hostOps0 W (Proc.devRef .tc main_v3) = Cert.ReferenceIdeal.Read.val_main_v3 (F := F) (W (Proc.devRef .tc main_arg1)) := by
  after_results
  rfl
theorem s0_arg0 : after hostOps0 W (Proc.devRef .tc main_arg0) = W (Proc.devRef .tc main_arg0) := by
  after_results
theorem s0_arg2 : after hostOps0 W (Proc.devRef .tc main_arg2) = W (Proc.devRef .tc main_arg2) := by
  after_results
theorem s0_arg4 : after hostOps0 W (Proc.devRef .tc main_arg4) = W (Proc.devRef .tc main_arg4) := by
  after_results
theorem s0_arg5 : after hostOps0 W (Proc.devRef .tc main_arg5) = W (Proc.devRef .tc main_arg5) := by
  after_results
theorem s0_arg6 : after hostOps0 W (Proc.devRef .tc main_arg6) = W (Proc.devRef .tc main_arg6) := by
  after_results
theorem s0_arg7 : after hostOps0 W (Proc.devRef .tc main_arg7) = W (Proc.devRef .tc main_arg7) := by
  after_results
theorem s0_arg8 : after hostOps0 W (Proc.devRef .tc main_arg8) = W (Proc.devRef .tc main_arg8) := by
  after_results
theorem s0_arg9 : after hostOps0 W (Proc.devRef .tc main_arg9) = W (Proc.devRef .tc main_arg9) := by
  after_results
theorem s0_arg10 : after hostOps0 W (Proc.devRef .tc main_arg10) = W (Proc.devRef .tc main_arg10) := by
  after_results
theorem s0_arg11 : after hostOps0 W (Proc.devRef .tc main_arg11) = W (Proc.devRef .tc main_arg11) := by
  after_results

/-! ## Between regions 0 and 1: the in-degree, the first neighbour mean, two transposes -/

/-- The three stretches between regions 0 and 1 (the degree's scatter-add, its clip, the neighbour mean). -/
abbrev after1 (W : Valuation τ sig (Elt F)) : Valuation τ sig (Elt F) := after hostOps1_2 (after hostOps1_1 (after hostOps1 W))

set_option maxHeartbeats 1000000 in
theorem s1_v28 (A1 : (⟨Cert.ReferenceIdeal.S2x600000, .i32⟩ : BufTy).Contents (Elt F))
    (h1 : W (Proc.devRef .tc main_v1) = Cert.ReferenceIdeal.Read.val_main_v1 (F := F) A1) (h3 : W (Proc.devRef .tc main_v3) = Cert.ReferenceIdeal.Read.val_main_v3 (F := F) A1) :
    after1 W (Proc.devRef .tc main_v28) = Cert.ReferenceIdeal.RefValue.refAggr (F := F) A1 (W (Proc.devRef .tc main_v11)) := by
  unfold after1
  after_results_simp
  rw [h1, h3]
  rfl
set_option maxHeartbeats 1000000 in
theorem s1_v16 (A1 : (⟨Cert.ReferenceIdeal.S2x600000, .i32⟩ : BufTy).Contents (Elt F)) (h3 : W (Proc.devRef .tc main_v3) = Cert.ReferenceIdeal.Read.val_main_v3 (F := F) A1) :
    after1 W (Proc.devRef .tc main_v16) = Cert.ReferenceIdeal.Read.val_main_v36 (F := F) A1 := by
  unfold after1
  after_results_simp
  rw [h3]
  rfl
set_option maxHeartbeats 1000000 in
theorem s1_v29 : after1 W (Proc.devRef .tc main_v29) = Cert.ReferenceIdeal.Read.val_main_v39 (F := F) (W (Proc.devRef .tc main_arg4)) := by
  unfold after1
  after_results_simp
  rfl
set_option maxHeartbeats 1000000 in
theorem s1_v30 : after1 W (Proc.devRef .tc main_v30) = Cert.ReferenceIdeal.Read.val_main_v44 (F := F) (W (Proc.devRef .tc main_arg6)) := by
  unfold after1
  after_results_simp
  rfl
set_option maxHeartbeats 1000000 in
theorem s1_v11 : after1 W (Proc.devRef .tc main_v11) = W (Proc.devRef .tc main_v11) := by
  unfold after1
  after_results_simp
set_option maxHeartbeats 1000000 in
theorem s1_v1 : after1 W (Proc.devRef .tc main_v1) = W (Proc.devRef .tc main_v1) := by
  unfold after1
  after_results_simp
set_option maxHeartbeats 1000000 in
theorem s1_v3 : after1 W (Proc.devRef .tc main_v3) = W (Proc.devRef .tc main_v3) := by
  unfold after1
  after_results_simp
set_option maxHeartbeats 1000000 in
theorem s1_arg2 : after1 W (Proc.devRef .tc main_arg2) = W (Proc.devRef .tc main_arg2) := by
  unfold after1
  after_results_simp
set_option maxHeartbeats 1000000 in
theorem s1_arg5 : after1 W (Proc.devRef .tc main_arg5) = W (Proc.devRef .tc main_arg5) := by
  unfold after1
  after_results_simp
set_option maxHeartbeats 1000000 in
theorem s1_arg7 : after1 W (Proc.devRef .tc main_arg7) = W (Proc.devRef .tc main_arg7) := by
  unfold after1
  after_results_simp
set_option maxHeartbeats 1000000 in
theorem s1_arg8 : after1 W (Proc.devRef .tc main_arg8) = W (Proc.devRef .tc main_arg8) := by
  unfold after1
  after_results_simp
set_option maxHeartbeats 1000000 in
theorem s1_arg9 : after1 W (Proc.devRef .tc main_arg9) = W (Proc.devRef .tc main_arg9) := by
  unfold after1
  after_results_simp
set_option maxHeartbeats 1000000 in
theorem s1_arg10 : after1 W (Proc.devRef .tc main_arg10) = W (Proc.devRef .tc main_arg10) := by
  unfold after1
  after_results_simp
set_option maxHeartbeats 1000000 in
theorem s1_arg11 : after1 W (Proc.devRef .tc main_arg11) = W (Proc.devRef .tc main_arg11) := by
  unfold after1
  after_results_simp

/-! ## Between regions 1 and 2: the second neighbour mean, two transposes -/

set_option maxHeartbeats 1000000 in
theorem s2_v43 (A1 : (⟨Cert.ReferenceIdeal.S2x600000, .i32⟩ : BufTy).Contents (Elt F))
    (h1 : W (Proc.devRef .tc main_v1) = Cert.ReferenceIdeal.Read.val_main_v1 (F := F) A1) (h3 : W (Proc.devRef .tc main_v3) = Cert.ReferenceIdeal.Read.val_main_v3 (F := F) A1)
    (h16 : W (Proc.devRef .tc main_v16) = Cert.ReferenceIdeal.Read.val_main_v36 (F := F) A1) :
    after hostOps2 W (Proc.devRef .tc main_v43) = Cert.ReferenceIdeal.RefValue.refAggr (F := F) A1 (W (Proc.devRef .tc main_v31)) := by
  after_results_simp
  rw [h1, h3, h16]
  rfl
theorem s2_v44 : after hostOps2 W (Proc.devRef .tc main_v44) = Cert.ReferenceIdeal.Read.val_main_v65 (F := F) (W (Proc.devRef .tc main_arg7)) := by
  after_results_simp
  rfl
theorem s2_v45 : after hostOps2 W (Proc.devRef .tc main_v45) = Cert.ReferenceIdeal.Read.val_main_v70 (F := F) (W (Proc.devRef .tc main_arg9)) := by
  after_results_simp
  rfl
theorem s2_v31 : after hostOps2 W (Proc.devRef .tc main_v31) = W (Proc.devRef .tc main_v31) := by
  after_results_simp
theorem s2_arg2 : after hostOps2 W (Proc.devRef .tc main_arg2) = W (Proc.devRef .tc main_arg2) := by
  after_results_simp
theorem s2_arg8 : after hostOps2 W (Proc.devRef .tc main_arg8) = W (Proc.devRef .tc main_arg8) := by
  after_results_simp
theorem s2_arg10 : after hostOps2 W (Proc.devRef .tc main_arg10) = W (Proc.devRef .tc main_arg10) := by
  after_results_simp
theorem s2_arg11 : after hostOps2 W (Proc.devRef .tc main_arg11) = W (Proc.devRef .tc main_arg11) := by
  after_results_simp

/-! ## Between regions 2 and 3: the mean pool, a transpose -/

/-- The three stretches between regions 2 and 3 (the pool's scatter-adds, the count's clip, the quotient). -/
abbrev after3 (W : Valuation τ sig (Elt F)) : Valuation τ sig (Elt F) := after hostOps3_2 (after hostOps3_1 (after hostOps3 W))

set_option maxHeartbeats 1000000 in
theorem s3_v56 : after3 W (Proc.devRef .tc main_v56) = Cert.ReferenceIdeal.RefValue.refPool (F := F) (W (Proc.devRef .tc main_arg2)) (W (Proc.devRef .tc main_v46)) := by
  unfold after3
  after_results_simp
  rfl
set_option maxHeartbeats 1000000 in
theorem s3_v57 : after3 W (Proc.devRef .tc main_v57) = Cert.ReferenceIdeal.Read.val_main_v84 (F := F) (W (Proc.devRef .tc main_arg10)) := by
  unfold after3
  after_results_simp
  rfl
set_option maxHeartbeats 1000000 in
theorem s3_arg11 : after3 W (Proc.devRef .tc main_arg11) = W (Proc.devRef .tc main_arg11) := by
  unfold after3
  after_results_simp

end Cert.KernelIdeal.Glue

end
-- ==== Proof.KBlocks.lean ====
/-
  Three spellings of "offset zero on every axis", for reading a store or a load through a whole-buffer rectangle.
-/
import Mathlib.Data.Fin.VecNotation

namespace Cert.KernelIdeal.Valued

theorem zero1 : (![0] : Fin 1 → Nat) = fun _ => 0 := funext fun a => match a with | ⟨0, _⟩ => rfl
theorem zero2 : (![0, 0] : Fin 2 → Nat) = fun _ => 0 := funext fun a => match a with | ⟨0, _⟩ => rfl | ⟨1, _⟩ => rfl
theorem zero3 : (![0, 0, 0] : Fin 3 → Nat) = fun _ => 0 := funext fun a => match a with | ⟨0, _⟩ => rfl | ⟨1, _⟩ => rfl | ⟨2, _⟩ => rfl

end Cert.KernelIdeal.Valued
-- ==== Proof.BagCell.lean ====
/-
  One cell of the bag mean.

  The kernel's first region computes, per block of 1000 rows, the mean of a row's 16 gathered embedding rows over the
  tokens that are not the padding token `1`: at row `p`, column `q`,
      (Σ_{k<16} emb(p,k,q) · w(p,k)) / max(Σ_{k<16} w(p,k), 1),      w(p,k) = 1 if tok(p,k) ≠ 1 else 0.
  The reference computes the same quotient on the whole 50000-row arrays.  Both are read here, at the extended reals,
  as ONE formula `bagF` of the row's 16 tokens and the 16 embedding entries of the column; the two programs differ
  only in how the 0/1 weight is converted (a widened bit read signed against a bit read unsigned), in the order of the
  two operands of the maximum, and in the sum's zero initial value, none of which changes the value.
-/
import proofs.«142027_j18442589569633_1_alg».proof.Proof.Gen.KernelIdeal.Skeleton
import proofs.«142027_j18442589569633_1_alg».proof.Proof.RefStages
import Idealize.ShloMosaic.Lib.ValueIdx
import Idealize.ShloMosaic.Lib.ValueLayout
import Idealize.ShloMosaic.PureOps.Ideal.Laws

noncomputable section

namespace Cert.KernelIdeal.Cells

open Idealize.ShloMosaic Idealize.ShloMosaic.TcCoe Idealize.SL.Sem Idealize.ShloMosaic.ValueIdx
open scoped BigOperators

variable {α : Type}

/-! ## Layout operations with a trailing unit axis, read at an index given by coordinates -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, q)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (q : Fin c) :
    broadcastTo ⟨3, ![a, b, c]⟩ v h (ix3 i j q) = v (ix3 i j (0 : Fin 1)) := by
  refine broadcastTo_apply v h (ix3 i j q) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1]` array broadcast to `[a, b]` reads, at `(i, q)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (q : Fin b) :
    broadcastTo ⟨2, ![a, b]⟩ v h (ix2 i q) = v (ix2 i (0 : Fin 1)) := by
  refine broadcastTo_apply v h (ix2 i q) (ix2 i (0 : Fin 1)) fun ax => ?_
  match ax with
  | ⟨0, _⟩ =>
    show i.val = if a = 1 then 0 else i.val
    split
    · have := i.isLt; omega
    · rfl
  | ⟨1, _⟩ => rfl

/-- A sum over the middle axis of a rank-3 vector, read at `(i, q)`: the sum over the middle coordinate. -/
theorem multiReduction_add_mid_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (q : Fin c) :
    multiReduction .add [1] ⟨2, ![a, c]⟩ src acc h hφ hacc (ix2 i q) = ∑ k : Fin b, src (ix3 i k q) := by
  refine (Ideal.multiReduction_add_single src acc h hφ hacc (ix2 i q)).trans ?_
  refine Finset.sum_congr rfl fun k _ => congrArg src ?_
  funext ax
  refine Fin.ext ?_
  match ax with
  | ⟨0, _⟩ => rfl
  | ⟨1, _⟩ => rfl
  | ⟨2, _⟩ => rfl

/-- The host's sum over the middle axis of a rank-3 array, read at `(i, q)`: the initial value plus the sum over the
    middle coordinate. -/
theorem hostReduceAdd_mid_apply {φ : FTy} {a b c : ℕ} {u : Shape} (x : FVec Ideal ⟨3, ![a, b, c]⟩ φ) (init : u.Idx → Ideal φ)
    (h' : (⟨3, ![a, b, c]⟩ : Shape).ReducesTo [1] ⟨2, ![a, c]⟩) (hu : 0 < u.numel)
    (h : (⟨3, ![a, b, c]⟩ : Shape).Reduces [1] ⟨2, ![a, c]⟩) (i : Fin a) (q : Fin c) :
    Host.reduceAdd (F := Ideal) x init h' hu (ix2 i q) = init (Shape.Idx.first hu) + ∑ k : Fin b, x (ix3 i k q) := by
  show Ideal.hostReduceAdd h' x (init (Shape.Idx.first hu)) (ix2 i q) = _
  refine (Ideal.hostReduceAdd_single h' h x _ (ix2 i q)).trans ?_
  refine congrArg (init (Shape.Idx.first hu) + ·) (Finset.sum_congr rfl fun k _ => congrArg x ?_)
  funext ax
  refine Fin.ext ?_
  match ax with
  | ⟨0, _⟩ => rfl
  | ⟨1, _⟩ => rfl
  | ⟨2, _⟩ => rfl

/-! ## The bag mean of one row, as a formula of the row's 16 tokens and 16 embedding entries -/

/-- A one-bit word widened to 32 bits and read signed is the bit read unsigned. -/
theorem toInt_setWidth_bit (b : BitVec 1) : (b.setWidth 32).toInt = (b.toNat : ℤ) := by
  rcases BitVec.eq_zero_or_eq_one b with rfl | rfl <;> decide

/-- The weight of a token: `1` when it is not the padding token `1`, else `0`. -/
def wt (b : BitVec 32) : EReal := (((IntOp.cmpi .ne b 1#32).toNat : ℝ) : EReal)

/-- The bag mean of one row and one column: the weighted sum of the 16 embedding entries over the larger of the
    number of non-padding tokens and the constant one. -/
def bagF (t : Fin 16 → BitVec 32) (e : Fin 16 → EReal) : EReal :=
  Ideal.div (∑ k : Fin 16, e k * wt (t k)) (max (∑ k : Fin 16, wt (t k)) (Ideal.ofBits .f32 0x3F800000#32))

/-- The kernel's mask at a token: the comparison bit widened and converted signed is the weight. -/
theorem kmask_apply (b : BitVec 32) :
    (FloatOps.sitofp (F := Ideal) .f32 ((IntOp.cmpi .ne b 1#32).setWidth 32) : Ideal .f32) = wt b := by
  show (((((IntOp.cmpi .ne b 1#32).setWidth 32).toInt : ℤ) : ℝ) : EReal) = _
  rw [toInt_setWidth_bit]
  rfl

/-- The kernel's bag-mean block at row `p`, column `q`. -/
theorem k0_pay1_apply (x0 : Vec Ideal Cert.KernelIdeal.S1000x16 .i32) (x1 : Vec Ideal Cert.KernelIdeal.S1000x16x128 .f32)
    (p : Fin 1000) (q : Fin 128) :
    Cert.KernelIdeal.Gen.k0_pay1 (F := Ideal) x0 x1 (ix2 p q)
      = bagF (fun k => x0 (ix2 p k)) (fun k => x1 (ix3 p k q)) := by
  unfold Cert.KernelIdeal.Gen.k0_pay1 bagF
  refine congrArg₂ Ideal.div ?_ ?_
  · refine (multiReduction_add_mid_apply _ _ _ _ _ p q).trans ?_
    refine Finset.sum_congr rfl fun k _ => ?_
    refine congrArg₂ (· * ·) ?_ ?_
    · exact congrFun (shapeCast_self x1 _) (ix3 p k q)
    · refine (broadcastTo_ab1_abc_apply _ _ p k q).trans ?_
      refine (shapeCast_ab_ab1_apply _ _ p k 0).trans ?_
      exact kmask_apply (x0 (ix2 p k))
  · refine (broadcastTo_a1_ab_apply _ _ p q).trans ?_
    refine congrArg₂ max ?_ rfl
    refine (multiReduction_add_mid_apply _ _ _ _ _ p (0 : Fin 1)).trans ?_
    refine Finset.sum_congr rfl fun k _ => ?_
    refine (shapeCast_ab_ab1_apply _ _ p k 0).trans ?_
    exact kmask_apply (x0 (ix2 p k))

/-! ## The reference's bag mean at row `r`, column `q` -/

section Reference

open Cert.ReferenceIdeal Cert.ReferenceIdeal.Gen Cert.ReferenceIdeal.Read Cert.ReferenceIdeal.RefValue

/-- The host's quotient read at an index. -/
theorem hostDivf_apply {s : Shape} {φ : FTy} (a b : FVec Ideal s φ) (i : s.Idx) :
    Host.divf a b i = Ideal.div (a i) (b i) := rfl

/-- The reference's mask at `(r, k, u)`: the comparison bit converted unsigned is the weight of token `(r, k)`. -/
theorem rmask_apply (tok : (⟨Cert.ReferenceIdeal.S50000x16, .i32⟩ : BufTy).Contents (Elt Ideal))
    (r : Fin 50000) (k : Fin 16) (u : Fin 1) :
    val_main_v14 (F := Ideal) tok (ix3 r k u) = wt (tok (ix2 r k)) := by
  rw [val_main_v14_apply, val_main_v13_apply, val_main_v12_apply, val_main_v11_apply, val_main_c_1_apply]
  have e : idx_main_v13 (ix3 r k u) = ix2 r k := by
    funext a
    refine Fin.ext ?_
    match a with
    | ⟨0, _⟩ => rfl
    | ⟨1, _⟩ => rfl
  rw [e]
  rfl

/-- The reference's weighted sum at `(r, q)`. -/
theorem refNum_apply (tok : (⟨Cert.ReferenceIdeal.S50000x16, .i32⟩ : BufTy).Contents (Elt Ideal))
    (emb : (⟨Cert.ReferenceIdeal.S50000x16x128, .f32⟩ : BufTy).Contents (Elt Ideal)) (r : Fin 50000) (q : Fin 128) :
    Host.reduceAdd (F := Ideal) (φ := .f32) (mulf (F := Ideal) (φ := .f32) emb (val_main_v15 (F := Ideal) tok))
        (val_main_cst (F := Ideal)) reducesTo_S50000x16x128_S50000x128_d1 h_S_ (ix2 r q)
      = ∑ k : Fin 16, emb (ix3 r k q) * wt (tok (ix2 r k)) := by
  refine (hostReduceAdd_mid_apply _ _ _ _ (by decide) r q).trans ?_
  rw [val_main_cst_apply, Ideal.ofBits_def, Ideal.ofBits_zero_f32, zero_add]
  refine Finset.sum_congr rfl fun k _ => ?_
  show emb (ix3 r k q) * val_main_v15 (F := Ideal) tok (ix3 r k q) = _
  have e15 : idx_main_v15 (ix3 r k q) = ix3 r k (0 : Fin 1) := by
    funext a
    refine Fin.ext ?_
    match a with
    | ⟨0, _⟩ => rfl
    | ⟨1, _⟩ => rfl
    | ⟨2, _⟩ => rfl
  rw [val_main_v15_apply, e15, rmask_apply]

/-- The reference's count at `(r, q)`: the larger of the constant one and the number of non-padding tokens of row `r`. -/
theorem refDen_apply (tok : (⟨Cert.ReferenceIdeal.S50000x16, .i32⟩ : BufTy).Contents (Elt Ideal)) (r : Fin 50000) (q : Fin 128) :
    val_main_v20 (F := Ideal) tok (ix2 r q)
      = max (Ideal.ofBits .f32 0x3F800000#32) (∑ k : Fin 16, wt (tok (ix2 r k))) := by
  rw [val_main_v20_apply, val_main_v19_apply, val_main_call0_v1_apply, val_main_call0_v0_apply, val_main_cst_3_apply,
    val_main_v18_apply, val_main_cst_2_apply, Ideal.ofBits_def, Ideal.ofBits_def, Ideal.ofBits_zero_f32, zero_add]
  refine congrArg (max _) (Finset.sum_congr rfl fun k _ => ?_)
  have e : idx_main_v18 (idx_main_v20 (ix2 r q)) k = ix3 r k (0 : Fin 1) := by
    funext a
    refine Fin.ext ?_
    match a with
    | ⟨0, _⟩ => rfl
    | ⟨1, _⟩ => rfl
    | ⟨2, _⟩ => rfl
  rw [e, rmask_apply]

/-- The reference's bag mean at row `r`, column `q`. -/
theorem refBag_apply (tok : (⟨Cert.ReferenceIdeal.S50000x16, .i32⟩ : BufTy).Contents (Elt Ideal))
    (emb : (⟨Cert.ReferenceIdeal.S50000x16x128, .f32⟩ : BufTy).Contents (Elt Ideal)) (r : Fin 50000) (q : Fin 128) :
    refBag (F := Ideal) tok emb (ix2 r q) = bagF (fun k => tok (ix2 r k)) (fun k => emb (ix3 r k q)) := by
  unfold refBag bagF
  refine (hostDivf_apply _ _ _).trans ?_
  exact congrArg₂ Ideal.div (refNum_apply tok emb r q) ((refDen_apply tok r q).trans (max_comm _ _))

end Reference

/-- One cell of the bag mean: the kernel's block at row `p` is the reference's array at row `r` when the block's row
    holds the array's row. -/
theorem bag_cell (x0 : Vec Ideal Cert.KernelIdeal.S1000x16 .i32) (x1 : Vec Ideal Cert.KernelIdeal.S1000x16x128 .f32)
    (tok : (⟨Cert.ReferenceIdeal.S50000x16, .i32⟩ : BufTy).Contents (Elt Ideal))
    (emb : (⟨Cert.ReferenceIdeal.S50000x16x128, .f32⟩ : BufTy).Contents (Elt Ideal))
    (p : Fin 1000) (q : Fin 128) (r : Fin 50000)
    (h0 : ∀ k : Fin 16, x0 (ValueIdx.ix2 p k) = tok (ValueIdx.ix2 r k))
    (h1 : ∀ k : Fin 16, x1 (ValueIdx.ix3 p k q) = emb (ValueIdx.ix3 r k q)) :
    Cert.KernelIdeal.Gen.k0_pay1 (F := Ideal) x0 x1 (ValueIdx.ix2 p q)
      = Cert.ReferenceIdeal.RefValue.refBag (F := Ideal) tok emb (ValueIdx.ix2 r q) := by
  rw [k0_pay1_apply, refBag_apply]
  exact congrArg₂ bagF (funext h0) (funext h1)

end Cert.KernelIdeal.Cells

end
-- ==== Proof.KRegion0.lean ====
/-
  Region 0 of the kernel program as one function of the arrays it finds.

  The region runs the bag-mean body at 50 grid points; point `t` reads rows `1000·t … 1000·t + 999` of the token array
  and of the gathered embedding array and writes the same rows of its output.  Each written block is the block of
  ONE whole-array function (the reference's bag mean of the two arrays), and the blocks tile the output, so the
  output array after the region is that function.
-/
import proofs.«142027_j18442589569633_1_alg».proof.Proof.Gen.KernelIdeal.Frame
import proofs.«142027_j18442589569633_1_alg».proof.Proof.RefStages
import proofs.«142027_j18442589569633_1_alg».proof.Proof.KBlocks
import proofs.«142027_j18442589569633_1_alg».proof.Proof.BagCell
import Idealize.ShloMosaic.Lib.ValueIdx
import Idealize.ShloMosaic.Lib.Pipeline.Value

set_option maxRecDepth 16384

noncomputable section

namespace Cert.KernelIdeal.Valued

open Idealize.ShloMosaic Idealize.ShloMosaic.TcCoe Idealize.ShloMosaic.Tactic
open Idealize.SL.Sem
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Idealize.ShloMosaic.Ideal) ((c : Thread nD τ).loc b))
/-! ## Region 0: the bag mean, 50 blocks of 1000 rows -/

/-- The printed index maps over the grid: every window of region 0 moves along the rows with the point and stays at
    block 0 on the other axes. -/
theorem index0 : ∀ t : Fin cfg0.N, t.val < 50
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- What point `t` writes back is block `t` of the bag mean of the arrays the region finds: row `p` of the block is
    row `1000·t + p` of the arrays. -/
theorem flushed0_eq (c : Dev nD) (t : Fin cfg0.N) :
    (dat0 V c).flushed 2 t = ((cfg0.win 2).blk t).view.read (Elt Idealize.ShloMosaic.Ideal)
      (Cert.ReferenceIdeal.RefValue.refBag (F := Idealize.ShloMosaic.Ideal) (V c main_arg0) (V c main_v10)) := by
  show (cfg0.win 2).cut (grid0.coords t) ((dat0 V c).after 2 t) = _
  rw [after0_2]
  unfold out0_2
  rw [View.canon_unit_zero zero2]
  simp only [View.ld_unit_zero (S := S1000x16) zero2, View.ld_unit_zero (S := S1000x16x128) zero3]
  obtain ⟨ht, e00, e01, e10, e11, e12, e20, e21⟩ := index0 t
  funext j
  obtain ⟨p, q, rfl⟩ : ∃ (p : Fin 1000) (q : Fin 128), j = ix2 p q := ⟨j 0, j 1, eq_ix2 j⟩
  have hp : p.val < 1000 := p.isLt
  show k0_pay1 (iblk0 V c 0 t) (iblk0 V c 1 t) (ix2 p q)
    = Cert.ReferenceIdeal.RefValue.refBag (F := Idealize.ShloMosaic.Ideal) (V c main_arg0) (V c main_v10) (((cfg0.win 2).blk t).view.emb (ix2 p q))
  have he : ((cfg0.win 2).blk t).view.emb (ix2 p q) = ix2 (⟨t.val * 1000 + p.val, by omega⟩ : Fin 50000) q := by
    funext a; apply Fin.ext
    match a with
    | ⟨0, _⟩ => show win0_2.index t (0 : Fin 2) * 1000 + 1 * p.val = t.val * 1000 + p.val; omega
    | ⟨1, _⟩ => show win0_2.index t (1 : Fin 2) * 128 + 1 * q.val = q.val; omega
  rw [he]
  refine Cert.KernelIdeal.Cells.bag_cell (iblk0 V c 0 t) (iblk0 V c 1 t) (V c main_arg0) (V c main_v10) p q ⟨t.val * 1000 + p.val, by omega⟩ ?_ ?_
  · intro k
    show V c main_arg0 (((cfg0.win 0).blk t).view.emb (ix2 p k)) = V c main_arg0 (ix2 (⟨t.val * 1000 + p.val, by omega⟩ : Fin 50000) k)
    refine congrArg (V c main_arg0) ?_
    funext a; apply Fin.ext
    match a with
    | ⟨0, _⟩ => show win0_0.index t (0 : Fin 2) * 1000 + 1 * p.val = t.val * 1000 + p.val; omega
    | ⟨1, _⟩ => show win0_0.index t (1 : Fin 2) * 16 + 1 * k.val = k.val; omega
  · intro k
    show V c main_v10 (((cfg0.win 1).blk t).view.emb (ix3 p k q)) = V c main_v10 (ix3 (⟨t.val * 1000 + p.val, by omega⟩ : Fin 50000) k q)
    refine congrArg (V c main_v10) ?_
    funext a; apply Fin.ext
    match a with
    | ⟨0, _⟩ => show win0_1.index t (0 : Fin 3) * 1000 + 1 * p.val = t.val * 1000 + p.val; omega
    | ⟨1, _⟩ => show win0_1.index t (1 : Fin 3) * 16 + 1 * k.val = k.val; omega
    | ⟨2, _⟩ => show win0_1.index t (2 : Fin 3) * 128 + 1 * q.val = q.val; omega

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v11).slice (win0_2.rect t)).set ↔ _
  rw [View.set_slice_whole, Rect.mem_set_unit]
  exact Iff.rfl

/-- The 50 blocks cover the 50000 rows (row `r` is in block `r / 1000`), so the output array ends at the bag mean. -/
theorem final0 (c : Dev nD) : (dat0 V c).arrAt 2 cfg0.N
    = Cert.ReferenceIdeal.RefValue.refBag (F := Idealize.ShloMosaic.Ideal) (V c main_arg0) (V c main_v10) := by
  refine (dat0 V c).arrAt_eq_of_cover 2 _ (fun t _ => flushed0_eq V c t) (fun i => ?_)
  have hi0 : (i 0).val < 50000 := (i 0).isLt
  have hi1 : (i 1).val < 128 := (i 1).isLt
  have hN : cfg0.N = 50 := N_0
  refine ⟨⟨(i 0).val / 1000, by rw [hN]; omega⟩, flush0_2 _, ?_⟩
  rw [mem_blk0]
  obtain ⟨ht, e00, e01, e10, e11, e12, e20, e21⟩ := index0 ⟨(i 0).val / 1000, by rw [hN]; omega⟩
  intro a
  match a with
  | ⟨0, _⟩ =>
    show win0_2.index ⟨(i 0).val / 1000, _⟩ (0 : Fin 2) * 1000 ≤ (i 0).val ∧ (i 0).val < win0_2.index ⟨(i 0).val / 1000, _⟩ (0 : Fin 2) * 1000 + 1000
    rw [e20]; show (i 0).val / 1000 * 1000 ≤ (i 0).val ∧ (i 0).val < (i 0).val / 1000 * 1000 + 1000; omega
  | ⟨1, _⟩ =>
    show win0_2.index ⟨(i 0).val / 1000, _⟩ (1 : Fin 2) * 128 ≤ (i 1).val ∧ (i 1).val < win0_2.index ⟨(i 0).val / 1000, _⟩ (1 : Fin 2) * 128 + 128
    rw [e21]; omega

end Cert.KernelIdeal.Valued

end
-- ==== Proof.SageCell.lean ====
/-
  One cell of a graph-convolution layer's dense part, on both sides.

  Per block of 5000 rows the kernel computes max (a·wl + b + x·wr) 0, the two products taken into a zero accumulator
  and the operands passed through a change of float format that is the identity on the extended reals; the reference
  computes the same expression over the whole 50000-row arrays. Read at one cell (row, column) both are

      max ((Σ_{k<128} a(row,k)·wl(k,column) + b(column)) + Σ_{k<128} x(row,k)·wr(k,column)) 0,

  a function of that ROW of a and of x, that COLUMN of wl and of wr and that ENTRY of b only. So a block whose row is a
  row of the arrays, and whose weights and bias agree with the reference's on the cell's column, gives the reference's
  cell.
-/
import proofs.«142027_j18442589569633_1_alg».proof.Proof.Gen.KernelIdeal.Skeleton
import proofs.«142027_j18442589569633_1_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cells.Sage

open Idealize.ShloMosaic Idealize.ShloMosaic.TcCoe Idealize.SL.Sem Idealize.ShloMosaic.ValueIdx

/-- The cell's value from one row of each left operand, one column of each weight and one entry of the bias:
    the positive part of (row of a · column of wl + bias) + row of x · column of wr. -/
def sageForm (ra rx cl cr : Fin 128 → EReal) (bq : EReal) : EReal :=
  max (((∑ k : Fin 128, ra k * cl k) + bq) + (∑ k : Fin 128, rx k * cr k)) (Ideal.ofBits .f32 0x00000000#32)

/-! ## The kernel's block product, bias and payload at a cell -/

/- Where the block product's operand indices sit: the left operand at (row of the cell, contracted position), the
   right operand at (contracted position, column of the cell). -/
theorem klhs_0 (i : Cert.KernelIdeal.S5000x128.Idx) (c : Cert.KernelIdeal.dot_S5000x128_S128x128_S5000x128_1_0_0_1_n_n.contr.Idx) :
    (Cert.KernelIdeal.dot_S5000x128_S128x128_S5000x128_1_0_0_1_n_n.lhsIdx i c 0).val = (i 0).val := by
  unfold DotDims.lhsIdx
  rw [dif_neg (show ¬(0 : Fin Cert.KernelIdeal.S5000x128.rank) ∈ Cert.KernelIdeal.dot_S5000x128_S128x128_S5000x128_1_0_0_1_n_n.lhsBatch by decide), dif_pos (show (0 : Fin Cert.KernelIdeal.S5000x128.rank) ∈ Cert.KernelIdeal.dot_S5000x128_S128x128_S5000x128_1_0_0_1_n_n.lhsNonContracting by decide)]
  rfl
theorem klhs_1 (i : Cert.KernelIdeal.S5000x128.Idx) (c : Cert.KernelIdeal.dot_S5000x128_S128x128_S5000x128_1_0_0_1_n_n.contr.Idx) :
    (Cert.KernelIdeal.dot_S5000x128_S128x128_S5000x128_1_0_0_1_n_n.lhsIdx i c 1).val = (c ⟨0, by decide⟩).val :=
  Cert.KernelIdeal.dot_S5000x128_S128x128_S5000x128_1_0_0_1_n_n.lhsIdx_val_of_single rfl i c
theorem krhs_0 (i : Cert.KernelIdeal.S5000x128.Idx) (c : Cert.KernelIdeal.dot_S5000x128_S128x128_S5000x128_1_0_0_1_n_n.contr.Idx) :
    (Cert.KernelIdeal.dot_S5000x128_S128x128_S5000x128_1_0_0_1_n_n.rhsIdx i c 0).val = (c ⟨0, by decide⟩).val :=
  Cert.KernelIdeal.dot_S5000x128_S128x128_S5000x128_1_0_0_1_n_n.rhsIdx_val_of_single rfl i c
theorem krhs_1 (i : Cert.KernelIdeal.S5000x128.Idx) (c : Cert.KernelIdeal.dot_S5000x128_S128x128_S5000x128_1_0_0_1_n_n.contr.Idx) :
    (Cert.KernelIdeal.dot_S5000x128_S128x128_S5000x128_1_0_0_1_n_n.rhsIdx i c 1).val = (i 1).val := by
  unfold DotDims.rhsIdx
  rw [dif_neg (show ¬(1 : Fin Cert.KernelIdeal.S128x128.rank) ∈ Cert.KernelIdeal.dot_S5000x128_S128x128_S5000x128_1_0_0_1_n_n.rhsBatch by decide), dif_pos (show (1 : Fin Cert.KernelIdeal.S128x128.rank) ∈ Cert.KernelIdeal.dot_S5000x128_S128x128_S5000x128_1_0_0_1_n_n.rhsNonContracting by decide)]
  rfl

/-- A block product into the zero accumulator, at cell (p, q): the sum over the 128 contracted positions. -/
theorem kmatmul_apply {φ₁ φ₂ : FTy} (l : FVec Ideal Cert.KernelIdeal.S5000x128 φ₁) (r : FVec Ideal Cert.KernelIdeal.S128x128 φ₂)
    (p : Fin 5000) (q : Fin 128) :
    matmul (F := Ideal) Cert.KernelIdeal.dot_S5000x128_S128x128_S5000x128_1_0_0_1_n_n none l r
        (constant (F := Ideal) Cert.KernelIdeal.S5000x128 .f32 0x00000000#32) (ix2 p q)
      = ∑ k : Fin 128, l (ix2 p k) * r (ix2 k q) := by
  simp only [matmul]
  rw [Ideal.matmul_constant_zero_apply, ← Equiv.sum_comp (contrEquiv1 Cert.KernelIdeal.dot_S5000x128_S128x128_S5000x128_1_0_0_1_n_n 128 rfl rfl).symm]
  refine Finset.sum_congr rfl fun k _ => ?_
  have hk := contrEquiv1_symm_val Cert.KernelIdeal.dot_S5000x128_S128x128_S5000x128_1_0_0_1_n_n 128 rfl rfl k
  have el : Cert.KernelIdeal.dot_S5000x128_S128x128_S5000x128_1_0_0_1_n_n.lhsIdx (ix2 p q) ((contrEquiv1 Cert.KernelIdeal.dot_S5000x128_S128x128_S5000x128_1_0_0_1_n_n 128 rfl rfl).symm k) = ix2 p k := funext fun a => Fin.ext (by
    match a with
    | ⟨0, _⟩ => exact klhs_0 _ _
    | ⟨1, _⟩ => exact (klhs_1 _ _).trans hk)
  have er : Cert.KernelIdeal.dot_S5000x128_S128x128_S5000x128_1_0_0_1_n_n.rhsIdx (ix2 p q) ((contrEquiv1 Cert.KernelIdeal.dot_S5000x128_S128x128_S5000x128_1_0_0_1_n_n 128 rfl rfl).symm k) = ix2 k q := funext fun a => Fin.ext (by
    match a with
    | ⟨0, _⟩ => exact (krhs_0 _ _).trans hk
    | ⟨1, _⟩ => exact krhs_1 _ _)
  rw [el, er]

/-- The bias as a one-row matrix broadcast down the block's rows, at cell (p, q): the bias at q. -/
theorem kbias_apply (b : Vec Ideal Cert.KernelIdeal.S128 .f32)
    (h1 : Cert.KernelIdeal.S128.ShapeCasts Cert.KernelIdeal.S1x128)
    (h2 : Cert.KernelIdeal.S1x128.Broadcasts Cert.KernelIdeal.S5000x128) (p : Fin 5000) (q : Fin 128) :
    broadcastTo Cert.KernelIdeal.S5000x128 (shapeCast Cert.KernelIdeal.S1x128 b h1) h2 (ix2 p q) = b (ix1 q) := by
  refine (broadcastTo_1b_ab_apply _ h2 p q).trans ?_
  exact shapeCast_a_1a_apply b h1 (0 : Fin 1) q

/-- The first layer's payload at cell (p, q) of a block: the closed form of row p of the two left operands, column q of
    the two weights and entry q of the bias. (The changes of float format are the identity on the extended reals, the
    shape casts to the same shape the identity on the values.) -/
theorem k1_pay1_apply (a x : Vec Ideal Cert.KernelIdeal.S5000x128 .f32) (wl wr : Vec Ideal Cert.KernelIdeal.S128x128 .f32)
    (b : Vec Ideal Cert.KernelIdeal.S128 .f32) (p : Fin 5000) (q : Fin 128) :
    Cert.KernelIdeal.Gen.k1_pay1 (F := Ideal) a x wl wr b (ix2 p q)
      = sageForm (fun k => a (ix2 p k)) (fun k => x (ix2 p k)) (fun k => wl (ix2 k q)) (fun k => wr (ix2 k q)) (b (ix1 q)) := by
  unfold Cert.KernelIdeal.Gen.k1_pay1 sageForm
  simp only [shapeCast_self, maximumf_apply, addf_apply, kmatmul_apply, broadcast_apply, truncf_apply]
  rw [kbias_apply]
  rfl

/-- The second layer's payload is the same text. -/
theorem k2_pay1_apply (a x : Vec Ideal Cert.KernelIdeal.S5000x128 .f32) (wl wr : Vec Ideal Cert.KernelIdeal.S128x128 .f32)
    (b : Vec Ideal Cert.KernelIdeal.S128 .f32) (p : Fin 5000) (q : Fin 128) :
    Cert.KernelIdeal.Gen.k2_pay1 (F := Ideal) a x wl wr b (ix2 p q)
      = sageForm (fun k => a (ix2 p k)) (fun k => x (ix2 p k)) (fun k => wl (ix2 k q)) (fun k => wr (ix2 k q)) (b (ix1 q)) := by
  unfold Cert.KernelIdeal.Gen.k2_pay1 sageForm
  simp only [shapeCast_self, maximumf_apply, addf_apply, kmatmul_apply, broadcast_apply, truncf_apply]
  rw [kbias_apply]
  rfl

/-! ## The reference's product, bias, zero and layer at a cell -/

/-- The host's product of the whole array with a weight, at cell (r, q): the same sum over the 128 contracted positions. -/
theorem rdot_apply (A : (⟨Cert.ReferenceIdeal.S50000x128, .f32⟩ : BufTy).Contents (Elt Ideal))
    (W : (⟨Cert.ReferenceIdeal.S128x128, .f32⟩ : BufTy).Contents (Elt Ideal)) (r : Fin 50000) (q : Fin 128) :
    Host.dotGeneral (F := Ideal) (φ₁ := .f32) (φ₂ := .f32) Cert.ReferenceIdeal.dot_S50000x128_S128x128_S50000x128_1_0_0_1_n_n none A W (ix2 r q)
      = ∑ k : Fin 128, A (ix2 r k) * W (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((contrEquiv1 Cert.ReferenceIdeal.dot_S50000x128_S128x128_S50000x128_1_0_0_1_n_n 128 rfl rfl).symm k) = ix2 r k := funext fun a => Fin.ext (by
    match a with
    | ⟨0, _⟩ => exact Cert.ReferenceIdeal.Read.lhs_main_v40_0 _ _
    | ⟨1, _⟩ => exact (Cert.ReferenceIdeal.Read.lhs_main_v40_1 _ _).trans hk)
  have er : Cert.ReferenceIdeal.dot_S50000x128_S128x128_S50000x128_1_0_0_1_n_n.rhsIdx (ix2 r q) ((contrEquiv1 Cert.ReferenceIdeal.dot_S50000x128_S128x128_S50000x128_1_0_0_1_n_n 128 rfl rfl).symm k) = ix2 k q := funext fun a => Fin.ext (by
    match a with
    | ⟨0, _⟩ => exact (Cert.ReferenceIdeal.Read.rhs_main_v40_0 _ _).trans hk
    | ⟨1, _⟩ => exact Cert.ReferenceIdeal.Read.rhs_main_v40_1 _ _)
  rw [el, er]

/-- The host's bias, made a one-row matrix and then broadcast down the rows, at cell (r, q): the bias at q. -/
theorem rbias_apply (b : (⟨Cert.ReferenceIdeal.S128, .f32⟩ : BufTy).Contents (Elt Ideal))
    (h1 : Cert.ReferenceIdeal.S128.BroadcastsInDim Cert.ReferenceIdeal.S1x128 (![1] : Fin 1 → Fin Cert.ReferenceIdeal.S1x128.rank))
    (h2 : Cert.ReferenceIdeal.S1x128.BroadcastsInDim Cert.ReferenceIdeal.S50000x128 (![0, 1] : Fin 2 → Fin Cert.ReferenceIdeal.S50000x128.rank))
    (r : Fin 50000) (q : Fin 128) :
    broadcastInDim Cert.ReferenceIdeal.S50000x128 ![0, 1] h2 (broadcastInDim Cert.ReferenceIdeal.S1x128 ![1] h1 b) (ix2 r q) = b (ix1 q) := by
  refine (broadcastInDim_apply _ h2 _ (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])).trans ?_
  exact broadcastInDim_apply _ h1 b (ix2 (0 : Fin 1) q) (ix1 q) (fun a => match a with
    | ⟨0, _⟩ => by show q.val = if (128 : Nat) = 1 then 0 else q.val; rw [if_neg (by decide)])

/-- The host's scalar zero broadcast to the whole array, at any cell: the zero word's value. -/
theorem rzero_apply (h : Cert.ReferenceIdeal.S_.BroadcastsInDim Cert.ReferenceIdeal.S50000x128 (![] : Fin 0 → Fin Cert.ReferenceIdeal.S50000x128.rank))
    (i : Cert.ReferenceIdeal.S50000x128.Idx) :
    broadcastInDim Cert.ReferenceIdeal.S50000x128 ![] h (constant (F := Ideal) Cert.ReferenceIdeal.S_ .f32 0x00000000#32) i
      = Ideal.ofBits .f32 0x00000000#32 :=
  (broadcastInDim_apply _ h _ i (fun a => a.elim0) (fun a => a.elim0)).trans rfl

/-- The reference's layer at cell (r, q) of the whole array: the closed form of row r of the two left operands, column q
    of the two weights and entry q of the bias. -/
theorem refSage_apply (A X : (⟨Cert.ReferenceIdeal.S50000x128, .f32⟩ : BufTy).Contents (Elt Ideal))
    (Wl : (⟨Cert.ReferenceIdeal.S128x128, .f32⟩ : BufTy).Contents (Elt Ideal))
    (b : (⟨Cert.ReferenceIdeal.S128, .f32⟩ : BufTy).Contents (Elt Ideal))
    (Wr : (⟨Cert.ReferenceIdeal.S128x128, .f32⟩ : BufTy).Contents (Elt Ideal)) (r : Fin 50000) (q : Fin 128) :
    Cert.ReferenceIdeal.RefValue.refSage (F := Ideal) A X Wl b Wr (ix2 r q)
      = sageForm (fun k => A (ix2 r k)) (fun k => X (ix2 r k)) (fun k => Wl (ix2 k q)) (fun k => Wr (ix2 k q)) (b (ix1 q)) := by
  unfold Cert.ReferenceIdeal.RefValue.refSage sageForm
  simp only [maximumf_apply, addf_apply]
  rw [rdot_apply, rdot_apply, rbias_apply, rzero_apply]

end Cert.KernelIdeal.Cells.Sage

namespace Cert.KernelIdeal.Cells

open Idealize.ShloMosaic Idealize.ShloMosaic.TcCoe Idealize.SL.Sem Idealize.ShloMosaic.ValueIdx

/-! ## The cell lemmas -/

/-- First layer: where row p of the block's two left operands is row r of the arrays, and column q of the block's weights
    and entry q of its bias are the reference's, the payload's cell (p, q) is the reference's cell (r, q). -/
theorem sage_cell1 (a x : Vec Ideal Cert.KernelIdeal.S5000x128 .f32) (wl wr : Vec Ideal Cert.KernelIdeal.S128x128 .f32) (b : Vec Ideal Cert.KernelIdeal.S128 .f32)
    (A X : (⟨Cert.ReferenceIdeal.S50000x128, .f32⟩ : BufTy).Contents (Elt Ideal))
    (WL WR : (⟨Cert.ReferenceIdeal.S128x128, .f32⟩ : BufTy).Contents (Elt Ideal)) (B : (⟨Cert.ReferenceIdeal.S128, .f32⟩ : BufTy).Contents (Elt Ideal))
    (p : Fin 5000) (q : Fin 128) (r : Fin 50000)
    (ha : ∀ k : Fin 128, a (ValueIdx.ix2 p k) = A (ValueIdx.ix2 r k))
    (hx : ∀ k : Fin 128, x (ValueIdx.ix2 p k) = X (ValueIdx.ix2 r k))
    (hwl : ∀ k : Fin 128, wl (ValueIdx.ix2 k q) = WL (ValueIdx.ix2 k q))
    (hwr : ∀ k : Fin 128, wr (ValueIdx.ix2 k q) = WR (ValueIdx.ix2 k q))
    (hb : b (ValueIdx.ix1 q) = B (ValueIdx.ix1 q)) :
    Cert.KernelIdeal.Gen.k1_pay1 (F := Ideal) a x wl wr b (ValueIdx.ix2 p q)
      = Cert.ReferenceIdeal.RefValue.refSage (F := Ideal) A X WL B WR (ValueIdx.ix2 r q) := by
  rw [Sage.k1_pay1_apply, Sage.refSage_apply, funext ha, funext hx, funext hwl, funext hwr, hb]

/-- Second layer: the same statement for the second printed copy of the payload. -/
theorem sage_cell2 (a x : Vec Ideal Cert.KernelIdeal.S5000x128 .f32) (wl wr : Vec Ideal Cert.KernelIdeal.S128x128 .f32) (b : Vec Ideal Cert.KernelIdeal.S128 .f32)
    (A X : (⟨Cert.ReferenceIdeal.S50000x128, .f32⟩ : BufTy).Contents (Elt Ideal))
    (WL WR : (⟨Cert.ReferenceIdeal.S128x128, .f32⟩ : BufTy).Contents (Elt Ideal)) (B : (⟨Cert.ReferenceIdeal.S128, .f32⟩ : BufTy).Contents (Elt Ideal))
    (p : Fin 5000) (q : Fin 128) (r : Fin 50000)
    (ha : ∀ k : Fin 128, a (ValueIdx.ix2 p k) = A (ValueIdx.ix2 r k))
    (hx : ∀ k : Fin 128, x (ValueIdx.ix2 p k) = X (ValueIdx.ix2 r k))
    (hwl : ∀ k : Fin 128, wl (ValueIdx.ix2 k q) = WL (ValueIdx.ix2 k q))
    (hwr : ∀ k : Fin 128, wr (ValueIdx.ix2 k q) = WR (ValueIdx.ix2 k q))
    (hb : b (ValueIdx.ix1 q) = B (ValueIdx.ix1 q)) :
    Cert.KernelIdeal.Gen.k2_pay1 (F := Ideal) a x wl wr b (ValueIdx.ix2 p q)
      = Cert.ReferenceIdeal.RefValue.refSage (F := Ideal) A X WL B WR (ValueIdx.ix2 r q) := by
  rw [Sage.k2_pay1_apply, Sage.refSage_apply, funext ha, funext hx, funext hwl, funext hwr, hb]

end Cert.KernelIdeal.Cells

end
-- ==== Proof.KRegion12.lean ====
/-
  Regions 1 and 2 of the kernel program, each as one function of the arrays it finds.

  Each region runs a convolution layer's dense body at 10 grid points; point `t` reads rows `5000·t … 5000·t + 4999`
  of the neighbour-mean array and of the node array, the two resident weights and the bias, and writes the same rows
  of its output.  Each written block is the block of ONE whole-array function (the reference's layer of those five
  arrays), and the blocks tile the output, so the output array after the region is that function.
-/
import proofs.«142027_j18442589569633_1_alg».proof.Proof.Gen.KernelIdeal.Frame
import proofs.«142027_j18442589569633_1_alg».proof.Proof.RefStages
import proofs.«142027_j18442589569633_1_alg».proof.Proof.KBlocks
import proofs.«142027_j18442589569633_1_alg».proof.Proof.SageCell
import Idealize.ShloMosaic.Lib.ValueIdx
import Idealize.ShloMosaic.Lib.Pipeline.Value

set_option maxRecDepth 16384

noncomputable section

namespace Cert.KernelIdeal.Valued

open Idealize.ShloMosaic Idealize.ShloMosaic.TcCoe Idealize.ShloMosaic.Tactic
open Idealize.SL.Sem
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Idealize.ShloMosaic.Ideal) ((c : Thread nD τ).loc b))
/-! ## Region 1: a convolution layer's dense part, 10 blocks of 5000 rows -/

/-- The printed index maps over the grid: the two row operands and the output move along the rows with the point; the
    weights and the bias stay at block 0. -/
theorem index1 : ∀ t : Fin cfg1.N, t.val < 10
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer's dense part of the arrays the region finds: row `p` of the
    block is row `5000·t + p` of the arrays. -/
theorem flushed1_eq (c : Dev nD) (t : Fin cfg1.N) :
    (dat1 V c).flushed 5 t = ((cfg1.win 5).blk t).view.read (Elt Idealize.ShloMosaic.Ideal)
      (Cert.ReferenceIdeal.RefValue.refSage (F := Idealize.ShloMosaic.Ideal) (V c main_v28) (V c main_v11) (V c main_v29) (V c main_arg5) (V c main_v30)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x128) zero2, View.ld_unit_zero (S := S128) zero1]
  obtain ⟨ht, e00, e01, e10, e11, e20, e21, e30, e40, e41, e50, e51⟩ := index1 t
  funext j
  obtain ⟨p, q, rfl⟩ : ∃ (p : Fin 5000) (q : Fin 128), j = ix2 p q := ⟨j 0, j 1, eq_ix2 j⟩
  have hp : p.val < 5000 := p.isLt
  show k1_pay1 (iblk1 V c 0 t) (iblk1 V c 1 t) (iblk1 V c 2 t) (iblk1 V c 4 t) (iblk1 V c 3 t) (ix2 p q)
    = Cert.ReferenceIdeal.RefValue.refSage (F := Idealize.ShloMosaic.Ideal) (V c main_v28) (V c main_v11) (V c main_v29) (V c main_arg5) (V c main_v30) (((cfg1.win 5).blk t).view.emb (ix2 p q))
  have he : ((cfg1.win 5).blk t).view.emb (ix2 p q) = ix2 (⟨t.val * 5000 + p.val, by omega⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  rw [he]
  refine Cert.KernelIdeal.Cells.sage_cell1 (iblk1 V c 0 t) (iblk1 V c 1 t) (iblk1 V c 2 t) (iblk1 V c 4 t) (iblk1 V c 3 t)
    (V c main_v28) (V c main_v11) (V c main_v29) (V c main_v30) (V c main_arg5) p q ⟨t.val * 5000 + p.val, by omega⟩ ?_ ?_ ?_ ?_ ?_
  · intro k
    show V c main_v28 (((cfg1.win 0).blk t).view.emb (ix2 p k)) = V c main_v28 (ix2 (⟨t.val * 5000 + p.val, by omega⟩ : Fin 50000) k)
    refine congrArg (V c main_v28) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · intro k
    show V c main_v11 (((cfg1.win 1).blk t).view.emb (ix2 p k)) = V c main_v11 (ix2 (⟨t.val * 5000 + p.val, by omega⟩ : Fin 50000) k)
    refine congrArg (V c main_v11) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * k.val = k.val; omega
  · intro k
    show V c main_v29 (((cfg1.win 2).blk t).view.emb (ix2 k q)) = V c main_v29 (ix2 k q)
    refine congrArg (V c main_v29) ?_
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  · intro k
    show V c main_v30 (((cfg1.win 4).blk t).view.emb (ix2 k q)) = V c main_v30 (ix2 k q)
    refine congrArg (V c main_v30) ?_
    funext a; apply Fin.ext
    match a with
    | ⟨0, _⟩ => show win1_4.index t (0 : Fin 2) * 128 + 1 * k.val = k.val; omega
    | ⟨1, _⟩ => show win1_4.index t (1 : Fin 2) * 128 + 1 * q.val = q.val; omega
  · show V c main_arg5 (((cfg1.win 3).blk t).view.emb (ix1 q)) = V c main_arg5 (ix1 q)
    refine congrArg (V c main_arg5) ?_
    funext a; apply Fin.ext
    match a with
    | ⟨0, _⟩ => show win1_3.index t (0 : Fin 1) * 128 + 1 * q.val = q.val; omega

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v31).slice (win1_5.rect t)).set ↔ _
  rw [View.set_slice_whole, Rect.mem_set_unit]
  exact Iff.rfl

/-- The 10 blocks cover the 50000 rows (row `r` is in block `r / 5000`), so the output array ends at the layer's
    dense part of the arrays the region finds. -/
theorem final1 (c : Dev nD) : (dat1 V c).arrAt 5 cfg1.N
    = Cert.ReferenceIdeal.RefValue.refSage (F := Idealize.ShloMosaic.Ideal) (V c main_v28) (V c main_v11) (V c main_v29) (V c main_arg5) (V c main_v30) := by
  refine (dat1 V c).arrAt_eq_of_cover 5 _ (fun t _ => flushed1_eq V c t) (fun i => ?_)
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk1]
  obtain ⟨ht, e00, e01, e10, e11, e20, e21, e30, e40, e41, e50, e51⟩ := index1 ⟨(i 0).val / 5000, by rw [hN]; omega⟩
  intro a
  match a with
  | ⟨0, _⟩ =>
    show win1_5.index ⟨(i 0).val / 5000, _⟩ (0 : Fin 2) * 5000 ≤ (i 0).val ∧ (i 0).val < win1_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, _⟩ (1 : Fin 2) * 128 ≤ (i 1).val ∧ (i 1).val < win1_5.index ⟨(i 0).val / 5000, _⟩ (1 : Fin 2) * 128 + 128
    rw [e51]; omega

/-! ## Region 2: a convolution layer's dense part, 10 blocks of 5000 rows -/

/-- The printed index maps over the grid: the two row operands and the output move along the rows with the point; the
    weights and the bias stay at block 0. -/
theorem index2 : ∀ t : Fin cfg2.N, t.val < 10
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the layer's dense part of the arrays the region finds: row `p` of the
    block is row `5000·t + p` of the arrays. -/
theorem flushed2_eq (c : Dev nD) (t : Fin cfg2.N) :
    (dat2 V c).flushed 5 t = ((cfg2.win 5).blk t).view.read (Elt Idealize.ShloMosaic.Ideal)
      (Cert.ReferenceIdeal.RefValue.refSage (F := Idealize.ShloMosaic.Ideal) (V c main_v43) (V c main_v31) (V c main_v44) (V c main_arg8) (V c main_v45)) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S128x128) zero2, View.ld_unit_zero (S := S128) zero1]
  obtain ⟨ht, e00, e01, e10, e11, e20, e21, e30, e40, e41, e50, e51⟩ := index2 t
  funext j
  obtain ⟨p, q, rfl⟩ : ∃ (p : Fin 5000) (q : Fin 128), j = ix2 p q := ⟨j 0, j 1, eq_ix2 j⟩
  have hp : p.val < 5000 := p.isLt
  show k2_pay1 (iblk2 V c 0 t) (iblk2 V c 1 t) (iblk2 V c 2 t) (iblk2 V c 4 t) (iblk2 V c 3 t) (ix2 p q)
    = Cert.ReferenceIdeal.RefValue.refSage (F := Idealize.ShloMosaic.Ideal) (V c main_v43) (V c main_v31) (V c main_v44) (V c main_arg8) (V c main_v45) (((cfg2.win 5).blk t).view.emb (ix2 p q))
  have he : ((cfg2.win 5).blk t).view.emb (ix2 p q) = ix2 (⟨t.val * 5000 + p.val, by omega⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  rw [he]
  refine Cert.KernelIdeal.Cells.sage_cell2 (iblk2 V c 0 t) (iblk2 V c 1 t) (iblk2 V c 2 t) (iblk2 V c 4 t) (iblk2 V c 3 t)
    (V c main_v43) (V c main_v31) (V c main_v44) (V c main_v45) (V c main_arg8) p q ⟨t.val * 5000 + p.val, by omega⟩ ?_ ?_ ?_ ?_ ?_
  · intro k
    show V c main_v43 (((cfg2.win 0).blk t).view.emb (ix2 p k)) = V c main_v43 (ix2 (⟨t.val * 5000 + p.val, by omega⟩ : Fin 50000) k)
    refine congrArg (V c main_v43) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k
    show V c main_v31 (((cfg2.win 1).blk t).view.emb (ix2 p k)) = V c main_v31 (ix2 (⟨t.val * 5000 + p.val, by omega⟩ : Fin 50000) k)
    refine congrArg (V c main_v31) ?_
    funext a; apply Fin.ext
    match a with
    | ⟨0, _⟩ => show win2_1.index t (0 : Fin 2) * 5000 + 1 * p.val = t.val * 5000 + p.val; omega
    | ⟨1, _⟩ => show win2_1.index t (1 : Fin 2) * 128 + 1 * k.val = k.val; omega
  · intro k
    show V c main_v44 (((cfg2.win 2).blk t).view.emb (ix2 k q)) = V c main_v44 (ix2 k q)
    refine congrArg (V c main_v44) ?_
    funext a; apply Fin.ext
    match a with
    | ⟨0, _⟩ => show win2_2.index t (0 : Fin 2) * 128 + 1 * k.val = k.val; omega
    | ⟨1, _⟩ => show win2_2.index t (1 : Fin 2) * 128 + 1 * q.val = q.val; omega
  · intro k
    show V c main_v45 (((cfg2.win 4).blk t).view.emb (ix2 k q)) = V c main_v45 (ix2 k q)
    refine congrArg (V c main_v45) ?_
    funext a; apply Fin.ext
    match a with
    | ⟨0, _⟩ => show win2_4.index t (0 : Fin 2) * 128 + 1 * k.val = k.val; omega
    | ⟨1, _⟩ => show win2_4.index t (1 : Fin 2) * 128 + 1 * q.val = q.val; omega
  · show V c main_arg8 (((cfg2.win 3).blk t).view.emb (ix1 q)) = V c main_arg8 (ix1 q)
    refine congrArg (V c main_arg8) ?_
    funext a; apply Fin.ext
    match a with
    | ⟨0, _⟩ => show win2_3.index t (0 : Fin 1) * 128 + 1 * q.val = q.val; omega

/-- An index of the output array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v46).slice (win2_5.rect t)).set ↔ _
  rw [View.set_slice_whole, Rect.mem_set_unit]
  exact Iff.rfl

/-- The 10 blocks cover the 50000 rows (row `r` is in block `r / 5000`), so the output array ends at the layer's
    dense part of the arrays the region finds. -/
theorem final2 (c : Dev nD) : (dat2 V c).arrAt 5 cfg2.N
    = Cert.ReferenceIdeal.RefValue.refSage (F := Idealize.ShloMosaic.Ideal) (V c main_v43) (V c main_v31) (V c main_v44) (V c main_arg8) (V c main_v45) := by
  refine (dat2 V c).arrAt_eq_of_cover 5 _ (fun t _ => flushed2_eq V c t) (fun i => ?_)
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_blk2]
  obtain ⟨ht, e00, e01, e10, e11, e20, e21, e30, e40, e41, e50, e51⟩ := index2 ⟨(i 0).val / 5000, by rw [hN]; omega⟩
  intro a
  match a with
  | ⟨0, _⟩ =>
    show win2_5.index ⟨(i 0).val / 5000, _⟩ (0 : Fin 2) * 5000 ≤ (i 0).val ∧ (i 0).val < win2_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, _⟩ (1 : Fin 2) * 128 ≤ (i 1).val ∧ (i 1).val < win2_5.index ⟨(i 0).val / 5000, _⟩ (1 : Fin 2) * 128 + 128
    rw [e51]; omega

end Cert.KernelIdeal.Valued

end
-- ==== Proof.ProjCell.lean ====
/-
  One cell of the final projection, on both sides.

  The kernel computes g·w + b in one region whose block is the whole 512×128 array, the product taken into a zero
  accumulator and the operands passed through a change of float format that is the identity on the extended reals; the
  reference computes the same expression on the host. Read at one cell (row, column) both are

      Σ_{k<128} g(row,k)·w(k,column) + b(column),

  a function of that ROW of g, that COLUMN of w and that ENTRY of b only.
-/
import proofs.«142027_j18442589569633_1_alg».proof.Proof.Gen.KernelIdeal.Skeleton
import proofs.«142027_j18442589569633_1_alg».proof.Proof.RefStages
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cells.Proj

open Idealize.ShloMosaic Idealize.ShloMosaic.TcCoe Idealize.SL.Sem Idealize.ShloMosaic.ValueIdx

/-- The cell's value from one row of the left operand, one column of the weight and one entry of the bias. -/
def projForm (rg cw : Fin 128 → EReal) (bq : EReal) : EReal :=
  (∑ k : Fin 128, rg k * cw k) + bq

/-! ## The kernel's product, bias and payload at a cell -/

/- Where the product's operand indices sit: the left operand at (row of the cell, contracted position), the right
   operand at (contracted position, column of the cell). -/
theorem klhs_0 (i : Cert.KernelIdeal.S512x10.Idx) (c : Cert.KernelIdeal.dot_S512x128_S128x10_S512x10_1_0_0_1_n_n.contr.Idx) :
    (Cert.KernelIdeal.dot_S512x128_S128x10_S512x10_1_0_0_1_n_n.lhsIdx i c 0).val = (i 0).val := by
  unfold DotDims.lhsIdx
  rw [dif_neg (show ¬(0 : Fin Cert.KernelIdeal.S512x128.rank) ∈ Cert.KernelIdeal.dot_S512x128_S128x10_S512x10_1_0_0_1_n_n.lhsBatch by decide), dif_pos (show (0 : Fin Cert.KernelIdeal.S512x128.rank) ∈ Cert.KernelIdeal.dot_S512x128_S128x10_S512x10_1_0_0_1_n_n.lhsNonContracting by decide)]
  rfl
theorem klhs_1 (i : Cert.KernelIdeal.S512x10.Idx) (c : Cert.KernelIdeal.dot_S512x128_S128x10_S512x10_1_0_0_1_n_n.contr.Idx) :
    (Cert.KernelIdeal.dot_S512x128_S128x10_S512x10_1_0_0_1_n_n.lhsIdx i c 1).val = (c ⟨0, by decide⟩).val :=
  Cert.KernelIdeal.dot_S512x128_S128x10_S512x10_1_0_0_1_n_n.lhsIdx_val_of_single rfl i c
theorem krhs_0 (i : Cert.KernelIdeal.S512x10.Idx) (c : Cert.KernelIdeal.dot_S512x128_S128x10_S512x10_1_0_0_1_n_n.contr.Idx) :
    (Cert.KernelIdeal.dot_S512x128_S128x10_S512x10_1_0_0_1_n_n.rhsIdx i c 0).val = (c ⟨0, by decide⟩).val :=
  Cert.KernelIdeal.dot_S512x128_S128x10_S512x10_1_0_0_1_n_n.rhsIdx_val_of_single rfl i c
theorem krhs_1 (i : Cert.KernelIdeal.S512x10.Idx) (c : Cert.KernelIdeal.dot_S512x128_S128x10_S512x10_1_0_0_1_n_n.contr.Idx) :
    (Cert.KernelIdeal.dot_S512x128_S128x10_S512x10_1_0_0_1_n_n.rhsIdx i c 1).val = (i 1).val := by
  unfold DotDims.rhsIdx
  rw [dif_neg (show ¬(1 : Fin Cert.KernelIdeal.S128x10.rank) ∈ Cert.KernelIdeal.dot_S512x128_S128x10_S512x10_1_0_0_1_n_n.rhsBatch by decide), dif_pos (show (1 : Fin Cert.KernelIdeal.S128x10.rank) ∈ Cert.KernelIdeal.dot_S512x128_S128x10_S512x10_1_0_0_1_n_n.rhsNonContracting by decide)]
  rfl

/-- The product into the zero accumulator, at cell (p, q): the sum over the 128 contracted positions. -/
theorem kmatmul_apply {φ₁ φ₂ : FTy} (l : FVec Ideal Cert.KernelIdeal.S512x128 φ₁) (r : FVec Ideal Cert.KernelIdeal.S128x10 φ₂)
    (p : Fin 512) (q : Fin 10) :
    matmul (F := Ideal) Cert.KernelIdeal.dot_S512x128_S128x10_S512x10_1_0_0_1_n_n none l r
        (constant (F := Ideal) Cert.KernelIdeal.S512x10 .f32 0x00000000#32) (ix2 p q)
      = ∑ k : Fin 128, l (ix2 p k) * r (ix2 k q) := by
  simp only [matmul]
  rw [Ideal.matmul_constant_zero_apply, ← Equiv.sum_comp (contrEquiv1 Cert.KernelIdeal.dot_S512x128_S128x10_S512x10_1_0_0_1_n_n 128 rfl rfl).symm]
  refine Finset.sum_congr rfl fun k _ => ?_
  have hk := contrEquiv1_symm_val Cert.KernelIdeal.dot_S512x128_S128x10_S512x10_1_0_0_1_n_n 128 rfl rfl k
  have el : Cert.KernelIdeal.dot_S512x128_S128x10_S512x10_1_0_0_1_n_n.lhsIdx (ix2 p q) ((contrEquiv1 Cert.KernelIdeal.dot_S512x128_S128x10_S512x10_1_0_0_1_n_n 128 rfl rfl).symm k) = ix2 p k := funext fun a => Fin.ext (by
    match a with
    | ⟨0, _⟩ => exact klhs_0 _ _
    | ⟨1, _⟩ => exact (klhs_1 _ _).trans hk)
  have er : Cert.KernelIdeal.dot_S512x128_S128x10_S512x10_1_0_0_1_n_n.rhsIdx (ix2 p q) ((contrEquiv1 Cert.KernelIdeal.dot_S512x128_S128x10_S512x10_1_0_0_1_n_n 128 rfl rfl).symm k) = ix2 k q := funext fun a => Fin.ext (by
    match a with
    | ⟨0, _⟩ => exact (krhs_0 _ _).trans hk
    | ⟨1, _⟩ => exact krhs_1 _ _)
  rw [el, er]

/-- The bias as a one-row matrix broadcast down the rows, at cell (p, q): the bias at q. -/
theorem kbias_apply (b : Vec Ideal Cert.KernelIdeal.S10 .f32)
    (h1 : Cert.KernelIdeal.S10.ShapeCasts Cert.KernelIdeal.S1x10)
    (h2 : Cert.KernelIdeal.S1x10.Broadcasts Cert.KernelIdeal.S512x10) (p : Fin 512) (q : Fin 10) :
    broadcastTo Cert.KernelIdeal.S512x10 (shapeCast Cert.KernelIdeal.S1x10 b h1) h2 (ix2 p q) = b (ix1 q) := by
  refine (broadcastTo_1b_ab_apply _ h2 p q).trans ?_
  exact shapeCast_a_1a_apply b h1 (0 : Fin 1) q

/-- The projection's payload at cell (p, q): the closed form of row p of the left operand, column q of the weight and
    entry q of the bias. (The changes of float format are the identity on the extended reals, the shape casts to the
    same shape the identity on the values.) -/
theorem k3_pay1_apply (g : Vec Ideal Cert.KernelIdeal.S512x128 .f32) (w : Vec Ideal Cert.KernelIdeal.S128x10 .f32)
    (b : Vec Ideal Cert.KernelIdeal.S10 .f32) (p : Fin 512) (q : Fin 10) :
    Cert.KernelIdeal.Gen.k3_pay1 (F := Ideal) g w b (ix2 p q)
      = projForm (fun k => g (ix2 p k)) (fun k => w (ix2 k q)) (b (ix1 q)) := by
  unfold Cert.KernelIdeal.Gen.k3_pay1 projForm
  simp only [shapeCast_self, addf_apply, kmatmul_apply, truncf_apply]
  rw [kbias_apply]

/-! ## The reference's product, bias and projection at a cell -/

/-- The host's product, at cell (p, q): the same sum over the 128 contracted positions. -/
theorem rdot_apply (G : (⟨Cert.ReferenceIdeal.S512x128, .f32⟩ : BufTy).Contents (Elt Ideal))
    (W : (⟨Cert.ReferenceIdeal.S128x10, .f32⟩ : BufTy).Contents (Elt Ideal)) (p : Fin 512) (q : Fin 10) :
    Host.dotGeneral (F := Ideal) (φ₁ := .f32) (φ₂ := .f32) Cert.ReferenceIdeal.dot_S512x128_S128x10_S512x10_1_0_0_1_n_n none G W (ix2 p q)
      = ∑ k : Fin 128, G (ix2 p k) * W (ix2 k q) := by
  simp only [Host.dotGeneral]
  rw [Ideal.dotGeneral_apply, ← Equiv.sum_comp (contrEquiv1 Cert.ReferenceIdeal.dot_S512x128_S128x10_S512x10_1_0_0_1_n_n 128 rfl rfl).symm]
  refine Finset.sum_congr rfl fun k _ => ?_
  have hk := contrEquiv1_symm_val Cert.ReferenceIdeal.dot_S512x128_S128x10_S512x10_1_0_0_1_n_n 128 rfl rfl k
  have el : Cert.ReferenceIdeal.dot_S512x128_S128x10_S512x10_1_0_0_1_n_n.lhsIdx (ix2 p q) ((contrEquiv1 Cert.ReferenceIdeal.dot_S512x128_S128x10_S512x10_1_0_0_1_n_n 128 rfl rfl).symm k) = ix2 p k := funext fun a => Fin.ext (by
    match a with
    | ⟨0, _⟩ => exact Cert.ReferenceIdeal.Read.lhs_main_v85_0 _ _
    | ⟨1, _⟩ => exact (Cert.ReferenceIdeal.Read.lhs_main_v85_1 _ _).trans hk)
  have er : Cert.ReferenceIdeal.dot_S512x128_S128x10_S512x10_1_0_0_1_n_n.rhsIdx (ix2 p q) ((contrEquiv1 Cert.ReferenceIdeal.dot_S512x128_S128x10_S512x10_1_0_0_1_n_n 128 rfl rfl).symm k) = ix2 k q := funext fun a => Fin.ext (by
    match a with
    | ⟨0, _⟩ => exact (Cert.ReferenceIdeal.Read.rhs_main_v85_0 _ _).trans hk
    | ⟨1, _⟩ => exact Cert.ReferenceIdeal.Read.rhs_main_v85_1 _ _)
  rw [el, er]

/-- The host's bias, made a one-row matrix and then broadcast down the rows, at cell (p, q): the bias at q. -/
theorem rbias_apply (b : (⟨Cert.ReferenceIdeal.S10, .f32⟩ : BufTy).Contents (Elt Ideal))
    (h1 : Cert.ReferenceIdeal.S10.BroadcastsInDim Cert.ReferenceIdeal.S1x10 (![1] : Fin 1 → Fin Cert.ReferenceIdeal.S1x10.rank))
    (h2 : Cert.ReferenceIdeal.S1x10.BroadcastsInDim Cert.ReferenceIdeal.S512x10 (![0, 1] : Fin 2 → Fin Cert.ReferenceIdeal.S512x10.rank))
    (p : Fin 512) (q : Fin 10) :
    broadcastInDim Cert.ReferenceIdeal.S512x10 ![0, 1] h2 (broadcastInDim Cert.ReferenceIdeal.S1x10 ![1] h1 b) (ix2 p q) = b (ix1 q) := by
  refine (broadcastInDim_apply _ h2 _ (ix2 p q) (ix2 (0 : Fin 1) q) (fun a => match a with
    | ⟨0, _⟩ => by show 0 = if (1 : Nat) = 1 then 0 else p.val; rw [if_pos rfl]
    | ⟨1, _⟩ => by show q.val = if (10 : Nat) = 1 then 0 else q.val; rw [if_neg (by decide)])).trans ?_
  exact broadcastInDim_apply _ h1 b (ix2 (0 : Fin 1) q) (ix1 q) (fun a => match a with
    | ⟨0, _⟩ => by show q.val = if (10 : Nat) = 1 then 0 else q.val; rw [if_neg (by decide)])

/-- The reference's projection at cell (p, q): the closed form of row p of the left operand, column q of the weight and
    entry q of the bias. -/
theorem refProj_apply (G : (⟨Cert.ReferenceIdeal.S512x128, .f32⟩ : BufTy).Contents (Elt Ideal))
    (W : (⟨Cert.ReferenceIdeal.S128x10, .f32⟩ : BufTy).Contents (Elt Ideal))
    (b : (⟨Cert.ReferenceIdeal.S10, .f32⟩ : BufTy).Contents (Elt Ideal)) (p : Fin 512) (q : Fin 10) :
    Cert.ReferenceIdeal.RefValue.refProj (F := Ideal) G W b (ix2 p q)
      = projForm (fun k => G (ix2 p k)) (fun k => W (ix2 k q)) (b (ix1 q)) := by
  unfold Cert.ReferenceIdeal.RefValue.refProj projForm
  simp only [addf_apply]
  rw [rdot_apply, rbias_apply]

end Cert.KernelIdeal.Cells.Proj

namespace Cert.KernelIdeal.Cells

open Idealize.ShloMosaic Idealize.ShloMosaic.TcCoe Idealize.SL.Sem Idealize.ShloMosaic.ValueIdx

/-! ## The cell lemma -/

/-- Where row p of the kernel's left operand, column q of its weight and entry q of its bias are the reference's, the
    payload's cell (p, q) is the reference's cell (p, q). -/
theorem proj_cell (g : Vec Ideal Cert.KernelIdeal.S512x128 .f32) (w : Vec Ideal Cert.KernelIdeal.S128x10 .f32) (b : Vec Ideal Cert.KernelIdeal.S10 .f32)
    (G : (⟨Cert.ReferenceIdeal.S512x128, .f32⟩ : BufTy).Contents (Elt Ideal)) (W : (⟨Cert.ReferenceIdeal.S128x10, .f32⟩ : BufTy).Contents (Elt Ideal)) (B : (⟨Cert.ReferenceIdeal.S10, .f32⟩ : BufTy).Contents (Elt Ideal))
    (p : Fin 512) (q : Fin 10)
    (hg : ∀ k : Fin 128, g (ValueIdx.ix2 p k) = G (ValueIdx.ix2 p k))
    (hw : ∀ k : Fin 128, w (ValueIdx.ix2 k q) = W (ValueIdx.ix2 k q))
    (hb : b (ValueIdx.ix1 q) = B (ValueIdx.ix1 q)) :
    Cert.KernelIdeal.Gen.k3_pay1 (F := Ideal) g w b (ValueIdx.ix2 p q) = Cert.ReferenceIdeal.RefValue.refProj (F := Ideal) G W B (ValueIdx.ix2 p q) := by
  rw [Proj.k3_pay1_apply, Proj.refProj_apply, funext hg, funext hw, hb]

end Cert.KernelIdeal.Cells

end
-- ==== Proof.KRegion3.lean ====
/-
  Region 3 of the kernel program as one function of the arrays it finds.

  The region runs the projection body at its one grid point, whose blocks are the whole arrays: the result array after
  the region is the reference's projection of the pooled array, the transposed weight and the bias.
-/
import proofs.«142027_j18442589569633_1_alg».proof.Proof.Gen.KernelIdeal.Frame
import proofs.«142027_j18442589569633_1_alg».proof.Proof.RefStages
import proofs.«142027_j18442589569633_1_alg».proof.Proof.KBlocks
import proofs.«142027_j18442589569633_1_alg».proof.Proof.ProjCell
import Idealize.ShloMosaic.Lib.ValueIdx
import Idealize.ShloMosaic.Lib.Pipeline.Value

set_option maxRecDepth 16384

noncomputable section

namespace Cert.KernelIdeal.Valued

open Idealize.ShloMosaic Idealize.ShloMosaic.TcCoe Idealize.ShloMosaic.Tactic
open Idealize.SL.Sem
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Idealize.ShloMosaic.Ideal) ((c : Thread nD τ).loc b))
/-! ## Region 3: the projection, one block -/

/-- The one point's blocks are the whole arrays: every block index is 0. -/
theorem index3 : ∀ t : Fin cfg3.N, win3_0.index t (0 : Fin 2) = 0 ∧ win3_0.index t (1 : Fin 2) = 0
    ∧ win3_1.index t (0 : Fin 2) = 0 ∧ win3_1.index t (1 : Fin 2) = 0 ∧ win3_2.index t (0 : Fin 1) = 0
    ∧ win3_3.index t (0 : Fin 2) = 0 ∧ win3_3.index t (1 : Fin 2) = 0 :=
  (by decide +kernel : ∀ t : Fin grid3.N, _)

/-- What the one point writes back is the projection of the arrays the region finds. -/
theorem flushed3_eq (c : Dev nD) (t : Fin cfg3.N) :
    (dat3 V c).flushed 3 t = ((cfg3.win 3).blk t).view.read (Elt Idealize.ShloMosaic.Ideal)
      (Cert.ReferenceIdeal.RefValue.refProj (F := Idealize.ShloMosaic.Ideal) (V c main_v56) (V c main_v57) (V c main_arg11)) := by
  show (cfg3.win 3).cut (grid3.coords t) ((dat3 V c).after 3 t) = _
  rw [after3_3]
  unfold out3_3
  rw [View.canon_unit_zero zero2]
  simp only [View.ld_unit_zero (S := S512x128) zero2, View.ld_unit_zero (S := S128x10) zero2, View.ld_unit_zero (S := S10) zero1]
  obtain ⟨e00, e01, e10, e11, e20, e30, e31⟩ := index3 t
  funext j
  obtain ⟨p, q, rfl⟩ : ∃ (p : Fin 512) (q : Fin 10), j = ix2 p q := ⟨j 0, j 1, eq_ix2 j⟩
  show k3_pay1 (iblk3 V c 0 t) (iblk3 V c 1 t) (iblk3 V c 2 t) (ix2 p q)
    = Cert.ReferenceIdeal.RefValue.refProj (F := Idealize.ShloMosaic.Ideal) (V c main_v56) (V c main_v57) (V c main_arg11) (((cfg3.win 3).blk t).view.emb (ix2 p q))
  have he : ((cfg3.win 3).blk t).view.emb (ix2 p q) = ix2 p q := by
    funext a; apply Fin.ext
    match a with
    | ⟨0, _⟩ => show win3_3.index t (0 : Fin 2) * 512 + 1 * p.val = p.val; omega
    | ⟨1, _⟩ => show win3_3.index t (1 : Fin 2) * 10 + 1 * q.val = q.val; omega
  rw [he]
  refine Cert.KernelIdeal.Cells.proj_cell (iblk3 V c 0 t) (iblk3 V c 1 t) (iblk3 V c 2 t) (V c main_v56) (V c main_v57) (V c main_arg11) p q ?_ ?_ ?_
  · intro k
    show V c main_v56 (((cfg3.win 0).blk t).view.emb (ix2 p k)) = V c main_v56 (ix2 p k)
    refine congrArg (V c main_v56) ?_
    funext a; apply Fin.ext
    match a with
    | ⟨0, _⟩ => show win3_0.index t (0 : Fin 2) * 512 + 1 * p.val = p.val; omega
    | ⟨1, _⟩ => show win3_0.index t (1 : Fin 2) * 128 + 1 * k.val = k.val; omega
  · intro k
    show V c main_v57 (((cfg3.win 1).blk t).view.emb (ix2 k q)) = V c main_v57 (ix2 k q)
    refine congrArg (V c main_v57) ?_
    funext a; apply Fin.ext
    match a with
    | ⟨0, _⟩ => show win3_1.index t (0 : Fin 2) * 128 + 1 * k.val = k.val; omega
    | ⟨1, _⟩ => show win3_1.index t (1 : Fin 2) * 10 + 1 * q.val = q.val; omega
  · show V c main_arg11 (((cfg3.win 2).blk t).view.emb (ix1 q)) = V c main_arg11 (ix1 q)
    refine congrArg (V c main_arg11) ?_
    funext a; apply Fin.ext
    match a with
    | ⟨0, _⟩ => show win3_2.index t (0 : Fin 1) * 10 + 1 * q.val = q.val; omega

/-- An index of the output array is in the point's block iff each coordinate is in the block's range on its axis. -/
theorem mem_blk3 (t : Fin cfg3.N) (i : S512x10.Idx) :
    i ∈ ((cfg3.win 3).blk t).view.set ↔ ∀ a : Fin 2, win3_3.index t a * S512x10.size a ≤ (i a).val ∧ (i a).val < win3_3.index t a * S512x10.size a + S512x10.size a := by
  show i ∈ ((View.whole main_v58).slice (win3_3.rect t)).set ↔ _
  rw [View.set_slice_whole, Rect.mem_set_unit]
  exact Iff.rfl

/-- The one block is the whole array, so the result array ends at the projection of the arrays the region finds. -/
theorem final3 (c : Dev nD) : (dat3 V c).arrAt 3 cfg3.N
    = Cert.ReferenceIdeal.RefValue.refProj (F := Idealize.ShloMosaic.Ideal) (V c main_v56) (V c main_v57) (V c main_arg11) := by
  refine (dat3 V c).arrAt_eq_of_cover 3 _ (fun t _ => flushed3_eq V c t) (fun i => ?_)
  refine ⟨t3_0, flush3_3 t3_0, ?_⟩
  rw [mem_blk3]
  obtain ⟨e00, e01, e10, e11, e20, e30, e31⟩ := index3 t3_0
  intro a
  match a with
  | ⟨0, _⟩ => show win3_3.index t3_0 (0 : Fin 2) * 512 ≤ (i 0).val ∧ (i 0).val < win3_3.index t3_0 (0 : Fin 2) * 512 + 512; have h : (i 0).val < 512 := (i 0).isLt; omega
  | ⟨1, _⟩ => show win3_3.index t3_0 (1 : Fin 2) * 10 ≤ (i 1).val ∧ (i 1).val < win3_3.index t3_0 (1 : Fin 2) * 10 + 10; have h : (i 1).val < 10 := (i 1).isLt; omega

end Cert.KernelIdeal.Valued

end
-- ==== Proof.KChain.lean ====
/-
  The kernel program's result, computed along its segment chain.

  The buffer contents after each segment are a fold over the launch memory.  Walking the fold from the launch to the
  return, each buffer a later segment reads is identified with a stage of the reference: the edge ids and the gathered
  embeddings after the first stretch; the bag mean after region 0; the neighbour mean, the clipped degree and the
  transposed weights after the second stretch; the first layer after region 1; and so on to the projection after
  region 3.  A buffer no segment in between writes keeps its value.  The last line is the result buffer at the
  reference's composed function of the twelve argument arrays.
-/
import proofs.«142027_j18442589569633_1_alg».proof.Proof.KRun
import proofs.«142027_j18442589569633_1_alg».proof.Proof.KGlue
import proofs.«142027_j18442589569633_1_alg».proof.Proof.KRegion0
import proofs.«142027_j18442589569633_1_alg».proof.Proof.KRegion12
import proofs.«142027_j18442589569633_1_alg».proof.Proof.KRegion3

set_option maxRecDepth 16384

noncomputable section

namespace Cert.KernelIdeal.Valued

open Idealize.ShloMosaic Idealize.ShloMosaic.TcCoe Idealize.ShloMosaic.Tactic
open Idealize.SL.Sem
open Idealize.ShloMosaic.Pipeline (Dat Cfg Window BodyObligation cellOf)
open Cert.KernelIdeal Cert.KernelIdeal.Gen Cert.KernelIdeal.Glue

variable (m : (ℓ : Loc nD τ sig) → Buf (Elt Idealize.ShloMosaic.Ideal) ℓ) (ρ : Dev nD → PrngReg) (c : Dev nD)

/-- The bag mean of the launch arrays. -/
def X0 : (⟨Cert.ReferenceIdeal.S50000x128, .f32⟩ : BufTy).Contents (Elt Idealize.ShloMosaic.Ideal) :=
  Cert.ReferenceIdeal.RefValue.refBag (F := Idealize.ShloMosaic.Ideal) (m ((c : Thread nD τ).loc main_arg0)) (Cert.ReferenceIdeal.Read.val_main_v10 (F := Idealize.ShloMosaic.Ideal) (m ((c : Thread nD τ).loc main_arg0)) (m ((c : Thread nD τ).loc main_arg3)))
/-- The first layer. -/
def X1 : (⟨Cert.ReferenceIdeal.S50000x128, .f32⟩ : BufTy).Contents (Elt Idealize.ShloMosaic.Ideal) :=
  Cert.ReferenceIdeal.RefValue.refSage (F := Idealize.ShloMosaic.Ideal) (Cert.ReferenceIdeal.RefValue.refAggr (F := Idealize.ShloMosaic.Ideal) (m ((c : Thread nD τ).loc main_arg1)) (X0 m c)) (X0 m c) (Cert.ReferenceIdeal.Read.val_main_v39 (F := Idealize.ShloMosaic.Ideal) (m ((c : Thread nD τ).loc main_arg4))) (m ((c : Thread nD τ).loc main_arg5)) (Cert.ReferenceIdeal.Read.val_main_v44 (F := Idealize.ShloMosaic.Ideal) (m ((c : Thread nD τ).loc main_arg6)))
/-- The second layer. -/
def X2 : (⟨Cert.ReferenceIdeal.S50000x128, .f32⟩ : BufTy).Contents (Elt Idealize.ShloMosaic.Ideal) :=
  Cert.ReferenceIdeal.RefValue.refSage (F := Idealize.ShloMosaic.Ideal) (Cert.ReferenceIdeal.RefValue.refAggr (F := Idealize.ShloMosaic.Ideal) (m ((c : Thread nD τ).loc main_arg1)) (X1 m c)) (X1 m c) (Cert.ReferenceIdeal.Read.val_main_v65 (F := Idealize.ShloMosaic.Ideal) (m ((c : Thread nD τ).loc main_arg7))) (m ((c : Thread nD τ).loc main_arg8)) (Cert.ReferenceIdeal.Read.val_main_v70 (F := Idealize.ShloMosaic.Ideal) (m ((c : Thread nD τ).loc main_arg9)))

/-! ## After the first stretch (region 0's entry) -/

theorem w1_v10 : W1 m ρ c (Proc.devRef .tc main_v10) = Cert.ReferenceIdeal.Read.val_main_v10 (F := Idealize.ShloMosaic.Ideal) (m ((c : Thread nD τ).loc main_arg0)) (m ((c : Thread nD τ).loc main_arg3)) := s0_v10 (W0 m ρ c)
theorem w1_v1 : W1 m ρ c (Proc.devRef .tc main_v1) = Cert.ReferenceIdeal.Read.val_main_v1 (F := Idealize.ShloMosaic.Ideal) (m ((c : Thread nD τ).loc main_arg1)) := s0_v1 (W0 m ρ c)
theorem w1_v3 : W1 m ρ c (Proc.devRef .tc main_v3) = Cert.ReferenceIdeal.Read.val_main_v3 (F := Idealize.ShloMosaic.Ideal) (m ((c : Thread nD τ).loc main_arg1)) := s0_v3 (W0 m ρ c)
theorem w1_arg0 : W1 m ρ c (Proc.devRef .tc main_arg0) = (m ((c : Thread nD τ).loc main_arg0)) := s0_arg0 (W0 m ρ c)
theorem w1_arg2 : W1 m ρ c (Proc.devRef .tc main_arg2) = (m ((c : Thread nD τ).loc main_arg2)) := s0_arg2 (W0 m ρ c)
theorem w1_arg4 : W1 m ρ c (Proc.devRef .tc main_arg4) = (m ((c : Thread nD τ).loc main_arg4)) := s0_arg4 (W0 m ρ c)
theorem w1_arg5 : W1 m ρ c (Proc.devRef .tc main_arg5) = (m ((c : Thread nD τ).loc main_arg5)) := s0_arg5 (W0 m ρ c)
theorem w1_arg6 : W1 m ρ c (Proc.devRef .tc main_arg6) = (m ((c : Thread nD τ).loc main_arg6)) := s0_arg6 (W0 m ρ c)
theorem w1_arg7 : W1 m ρ c (Proc.devRef .tc main_arg7) = (m ((c : Thread nD τ).loc main_arg7)) := s0_arg7 (W0 m ρ c)
theorem w1_arg8 : W1 m ρ c (Proc.devRef .tc main_arg8) = (m ((c : Thread nD τ).loc main_arg8)) := s0_arg8 (W0 m ρ c)
theorem w1_arg9 : W1 m ρ c (Proc.devRef .tc main_arg9) = (m ((c : Thread nD τ).loc main_arg9)) := s0_arg9 (W0 m ρ c)
theorem w1_arg10 : W1 m ρ c (Proc.devRef .tc main_arg10) = (m ((c : Thread nD τ).loc main_arg10)) := s0_arg10 (W0 m ρ c)
theorem w1_arg11 : W1 m ρ c (Proc.devRef .tc main_arg11) = (m ((c : Thread nD τ).loc main_arg11)) := s0_arg11 (W0 m ρ c)

/-! ## After region 0 -/

theorem w2_v11 : W2 m ρ c (Proc.devRef .tc main_v11) = X0 m c := by
  refine ((W2_arr m ρ c 2).trans (final0 (V1 m ρ) c)).trans ?_
  show Cert.ReferenceIdeal.RefValue.refBag (F := Idealize.ShloMosaic.Ideal) (W1 m ρ c (Proc.devRef .tc main_arg0)) (W1 m ρ c (Proc.devRef .tc main_v10)) = _
  rw [w1_arg0, w1_v10]
  rfl
theorem w2_v1 : W2 m ρ c (Proc.devRef .tc main_v1) = Cert.ReferenceIdeal.Read.val_main_v1 (F := Idealize.ShloMosaic.Ideal) (m ((c : Thread nD τ).loc main_arg1)) := (W2_of_ne m ρ c main_v1 (by decide)).trans (w1_v1 m ρ c)
theorem w2_v3 : W2 m ρ c (Proc.devRef .tc main_v3) = Cert.ReferenceIdeal.Read.val_main_v3 (F := Idealize.ShloMosaic.Ideal) (m ((c : Thread nD τ).loc main_arg1)) := (W2_of_ne m ρ c main_v3 (by decide)).trans (w1_v3 m ρ c)
theorem w2_arg2 : W2 m ρ c (Proc.devRef .tc main_arg2) = (m ((c : Thread nD τ).loc main_arg2)) := (W2_of_ne m ρ c main_arg2 (by decide)).trans (w1_arg2 m ρ c)
theorem w2_arg4 : W2 m ρ c (Proc.devRef .tc main_arg4) = (m ((c : Thread nD τ).loc main_arg4)) := (W2_of_ne m ρ c main_arg4 (by decide)).trans (w1_arg4 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)
theorem w2_arg8 : W2 m ρ c (Proc.devRef .tc main_arg8) = (m ((c : Thread nD τ).loc main_arg8)) := (W2_of_ne m ρ c main_arg8 (by decide)).trans (w1_arg8 m ρ c)
theorem w2_arg9 : W2 m ρ c (Proc.devRef .tc main_arg9) = (m ((c : Thread nD τ).loc main_arg9)) := (W2_of_ne m ρ c main_arg9 (by decide)).trans (w1_arg9 m ρ c)
theorem w2_arg10 : W2 m ρ c (Proc.devRef .tc main_arg10) = (m ((c : Thread nD τ).loc main_arg10)) := (W2_of_ne m ρ c main_arg10 (by decide)).trans (w1_arg10 m ρ c)
theorem w2_arg11 : W2 m ρ c (Proc.devRef .tc main_arg11) = (m ((c : Thread nD τ).loc main_arg11)) := (W2_of_ne m ρ c main_arg11 (by decide)).trans (w1_arg11 m ρ c)

/-! ## After the second stretch (region 1's entry) -/

theorem w5_v28 : W5 m ρ c (Proc.devRef .tc main_v28) = Cert.ReferenceIdeal.RefValue.refAggr (F := Idealize.ShloMosaic.Ideal) (m ((c : Thread nD τ).loc main_arg1)) (X0 m c) :=
  (s1_v28 (W2 m ρ c) (m ((c : Thread nD τ).loc main_arg1)) (w2_v1 m ρ c) (w2_v3 m ρ c)).trans (congrArg (Cert.ReferenceIdeal.RefValue.refAggr (F := Idealize.ShloMosaic.Ideal) (m ((c : Thread nD τ).loc main_arg1))) (w2_v11 m ρ c))
theorem w5_v16 : W5 m ρ c (Proc.devRef .tc main_v16) = Cert.ReferenceIdeal.Read.val_main_v36 (F := Idealize.ShloMosaic.Ideal) (m ((c : Thread nD τ).loc main_arg1)) := s1_v16 (W2 m ρ c) (m ((c : Thread nD τ).loc main_arg1)) (w2_v3 m ρ c)
theorem w5_v29 : W5 m ρ c (Proc.devRef .tc main_v29) = Cert.ReferenceIdeal.Read.val_main_v39 (F := Idealize.ShloMosaic.Ideal) (m ((c : Thread nD τ).loc main_arg4)) :=
  (s1_v29 (W2 m ρ c)).trans (congrArg (Cert.ReferenceIdeal.Read.val_main_v39 (F := Idealize.ShloMosaic.Ideal)) (w2_arg4 m ρ c))
theorem w5_v30 : W5 m ρ c (Proc.devRef .tc main_v30) = Cert.ReferenceIdeal.Read.val_main_v44 (F := Idealize.ShloMosaic.Ideal) (m ((c : Thread nD τ).loc main_arg6)) :=
  (s1_v30 (W2 m ρ c)).trans (congrArg (Cert.ReferenceIdeal.Read.val_main_v44 (F := Idealize.ShloMosaic.Ideal)) (w2_arg6 m ρ c))
theorem w5_v11 : W5 m ρ c (Proc.devRef .tc main_v11) = X0 m c := (s1_v11 (W2 m ρ c)).trans (w2_v11 m ρ c)
theorem w5_v1 : W5 m ρ c (Proc.devRef .tc main_v1) = Cert.ReferenceIdeal.Read.val_main_v1 (F := Idealize.ShloMosaic.Ideal) (m ((c : Thread nD τ).loc main_arg1)) := (s1_v1 (W2 m ρ c)).trans (w2_v1 m ρ c)
theorem w5_v3 : W5 m ρ c (Proc.devRef .tc main_v3) = Cert.ReferenceIdeal.Read.val_main_v3 (F := Idealize.ShloMosaic.Ideal) (m ((c : Thread nD τ).loc main_arg1)) := (s1_v3 (W2 m ρ c)).trans (w2_v3 m ρ c)
theorem w5_arg2 : W5 m ρ c (Proc.devRef .tc main_arg2) = (m ((c : Thread nD τ).loc main_arg2)) := (s1_arg2 (W2 m ρ c)).trans (w2_arg2 m ρ c)
theorem w5_arg5 : W5 m ρ c (Proc.devRef .tc main_arg5) = (m ((c : Thread nD τ).loc main_arg5)) := (s1_arg5 (W2 m ρ c)).trans (w2_arg5 m ρ c)
theorem w5_arg7 : W5 m ρ c (Proc.devRef .tc main_arg7) = (m ((c : Thread nD τ).loc main_arg7)) := (s1_arg7 (W2 m ρ c)).trans (w2_arg7 m ρ c)
theorem w5_arg8 : W5 m ρ c (Proc.devRef .tc main_arg8) = (m ((c : Thread nD τ).loc main_arg8)) := (s1_arg8 (W2 m ρ c)).trans (w2_arg8 m ρ c)
theorem w5_arg9 : W5 m ρ c (Proc.devRef .tc main_arg9) = (m ((c : Thread nD τ).loc main_arg9)) := (s1_arg9 (W2 m ρ c)).trans (w2_arg9 m ρ c)
theorem w5_arg10 : W5 m ρ c (Proc.devRef .tc main_arg10) = (m ((c : Thread nD τ).loc main_arg10)) := (s1_arg10 (W2 m ρ c)).trans (w2_arg10 m ρ c)
theorem w5_arg11 : W5 m ρ c (Proc.devRef .tc main_arg11) = (m ((c : Thread nD τ).loc main_arg11)) := (s1_arg11 (W2 m ρ c)).trans (w2_arg11 m ρ c)

/-! ## After region 1 -/

theorem w6_v31 : W6 m ρ c (Proc.devRef .tc main_v31) = X1 m c := by
  refine ((W6_arr m ρ c 5).trans (final1 (V5 m ρ) c)).trans ?_
  show Cert.ReferenceIdeal.RefValue.refSage (F := Idealize.ShloMosaic.Ideal) (W5 m ρ c (Proc.devRef .tc main_v28)) (W5 m ρ c (Proc.devRef .tc main_v11)) (W5 m ρ c (Proc.devRef .tc main_v29)) (W5 m ρ c (Proc.devRef .tc main_arg5)) (W5 m ρ c (Proc.devRef .tc main_v30)) = _
  rw [w5_v28, w5_v11, w5_v29, w5_arg5, w5_v30]
  rfl
theorem w6_v1 : W6 m ρ c (Proc.devRef .tc main_v1) = Cert.ReferenceIdeal.Read.val_main_v1 (F := Idealize.ShloMosaic.Ideal) (m ((c : Thread nD τ).loc main_arg1)) := (W6_of_ne m ρ c main_v1 (by decide)).trans (w5_v1 m ρ c)
theorem w6_v3 : W6 m ρ c (Proc.devRef .tc main_v3) = Cert.ReferenceIdeal.Read.val_main_v3 (F := Idealize.ShloMosaic.Ideal) (m ((c : Thread nD τ).loc main_arg1)) := (W6_of_ne m ρ c main_v3 (by decide)).trans (w5_v3 m ρ c)
theorem w6_v16 : W6 m ρ c (Proc.devRef .tc main_v16) = Cert.ReferenceIdeal.Read.val_main_v36 (F := Idealize.ShloMosaic.Ideal) (m ((c : Thread nD τ).loc main_arg1)) := (W6_of_ne m ρ c main_v16 (by decide)).trans (w5_v16 m ρ c)
theorem w6_arg2 : W6 m ρ c (Proc.devRef .tc main_arg2) = (m ((c : Thread nD τ).loc main_arg2)) := (W6_of_ne m ρ c main_arg2 (by decide)).trans (w5_arg2 m ρ c)
theorem w6_arg7 : W6 m ρ c (Proc.devRef .tc main_arg7) = (m ((c : Thread nD τ).loc main_arg7)) := (W6_of_ne m ρ c main_arg7 (by decide)).trans (w5_arg7 m ρ c)
theorem w6_arg8 : W6 m ρ c (Proc.devRef .tc main_arg8) = (m ((c : Thread nD τ).loc main_arg8)) := (W6_of_ne m ρ c main_arg8 (by decide)).trans (w5_arg8 m ρ c)
theorem w6_arg9 : W6 m ρ c (Proc.devRef .tc main_arg9) = (m ((c : Thread nD τ).loc main_arg9)) := (W6_of_ne m ρ c main_arg9 (by decide)).trans (w5_arg9 m ρ c)
theorem w6_arg10 : W6 m ρ c (Proc.devRef .tc main_arg10) = (m ((c : Thread nD τ).loc main_arg10)) := (W6_of_ne m ρ c main_arg10 (by decide)).trans (w5_arg10 m ρ c)
theorem w6_arg11 : W6 m ρ c (Proc.devRef .tc main_arg11) = (m ((c : Thread nD τ).loc main_arg11)) := (W6_of_ne m ρ c main_arg11 (by decide)).trans (w5_arg11 m ρ c)

/-! ## After the third stretch (region 2's entry) -/

theorem w7_v43 : W7 m ρ c (Proc.devRef .tc main_v43) = Cert.ReferenceIdeal.RefValue.refAggr (F := Idealize.ShloMosaic.Ideal) (m ((c : Thread nD τ).loc main_arg1)) (X1 m c) :=
  (s2_v43 (W6 m ρ c) (m ((c : Thread nD τ).loc main_arg1)) (w6_v1 m ρ c) (w6_v3 m ρ c) (w6_v16 m ρ c)).trans (congrArg (Cert.ReferenceIdeal.RefValue.refAggr (F := Idealize.ShloMosaic.Ideal) (m ((c : Thread nD τ).loc main_arg1))) (w6_v31 m ρ c))
theorem w7_v44 : W7 m ρ c (Proc.devRef .tc main_v44) = Cert.ReferenceIdeal.Read.val_main_v65 (F := Idealize.ShloMosaic.Ideal) (m ((c : Thread nD τ).loc main_arg7)) :=
  (s2_v44 (W6 m ρ c)).trans (congrArg (Cert.ReferenceIdeal.Read.val_main_v65 (F := Idealize.ShloMosaic.Ideal)) (w6_arg7 m ρ c))
theorem w7_v45 : W7 m ρ c (Proc.devRef .tc main_v45) = Cert.ReferenceIdeal.Read.val_main_v70 (F := Idealize.ShloMosaic.Ideal) (m ((c : Thread nD τ).loc main_arg9)) :=
  (s2_v45 (W6 m ρ c)).trans (congrArg (Cert.ReferenceIdeal.Read.val_main_v70 (F := Idealize.ShloMosaic.Ideal)) (w6_arg9 m ρ c))
theorem w7_v31 : W7 m ρ c (Proc.devRef .tc main_v31) = X1 m c := (s2_v31 (W6 m ρ c)).trans (w6_v31 m ρ c)
theorem w7_arg2 : W7 m ρ c (Proc.devRef .tc main_arg2) = (m ((c : Thread nD τ).loc main_arg2)) := (s2_arg2 (W6 m ρ c)).trans (w6_arg2 m ρ c)
theorem w7_arg8 : W7 m ρ c (Proc.devRef .tc main_arg8) = (m ((c : Thread nD τ).loc main_arg8)) := (s2_arg8 (W6 m ρ c)).trans (w6_arg8 m ρ c)
theorem w7_arg10 : W7 m ρ c (Proc.devRef .tc main_arg10) = (m ((c : Thread nD τ).loc main_arg10)) := (s2_arg10 (W6 m ρ c)).trans (w6_arg10 m ρ c)
theorem w7_arg11 : W7 m ρ c (Proc.devRef .tc main_arg11) = (m ((c : Thread nD τ).loc main_arg11)) := (s2_arg11 (W6 m ρ c)).trans (w6_arg11 m ρ c)

/-! ## After region 2 -/

theorem w8_v46 : W8 m ρ c (Proc.devRef .tc main_v46) = X2 m c := by
  refine ((W8_arr m ρ c 5).trans (final2 (V7 m ρ) c)).trans ?_
  show Cert.ReferenceIdeal.RefValue.refSage (F := Idealize.ShloMosaic.Ideal) (W7 m ρ c (Proc.devRef .tc main_v43)) (W7 m ρ c (Proc.devRef .tc main_v31)) (W7 m ρ c (Proc.devRef .tc main_v44)) (W7 m ρ c (Proc.devRef .tc main_arg8)) (W7 m ρ c (Proc.devRef .tc main_v45)) = _
  rw [w7_v43, w7_v31, w7_v44, w7_arg8, w7_v45]
  rfl
theorem w8_arg2 : W8 m ρ c (Proc.devRef .tc main_arg2) = (m ((c : Thread nD τ).loc main_arg2)) := (W8_of_ne m ρ c main_arg2 (by decide)).trans (w7_arg2 m ρ c)
theorem w8_arg10 : W8 m ρ c (Proc.devRef .tc main_arg10) = (m ((c : Thread nD τ).loc main_arg10)) := (W8_of_ne m ρ c main_arg10 (by decide)).trans (w7_arg10 m ρ c)
theorem w8_arg11 : W8 m ρ c (Proc.devRef .tc main_arg11) = (m ((c : Thread nD τ).loc main_arg11)) := (W8_of_ne m ρ c main_arg11 (by decide)).trans (w7_arg11 m ρ c)

/-! ## After the fourth stretch (region 3's entry) -/

theorem w11_v56 : W11 m ρ c (Proc.devRef .tc main_v56) = Cert.ReferenceIdeal.RefValue.refPool (F := Idealize.ShloMosaic.Ideal) (m ((c : Thread nD τ).loc main_arg2)) (X2 m c) := by
  refine (s3_v56 (W8 m ρ c)).trans ?_
  rw [w8_arg2, w8_v46]
theorem w11_v57 : W11 m ρ c (Proc.devRef .tc main_v57) = Cert.ReferenceIdeal.Read.val_main_v84 (F := Idealize.ShloMosaic.Ideal) (m ((c : Thread nD τ).loc main_arg10)) :=
  (s3_v57 (W8 m ρ c)).trans (congrArg (Cert.ReferenceIdeal.Read.val_main_v84 (F := Idealize.ShloMosaic.Ideal)) (w8_arg10 m ρ c))
theorem w11_arg11 : W11 m ρ c (Proc.devRef .tc main_arg11) = (m ((c : Thread nD τ).loc main_arg11)) := (s3_arg11 (W8 m ρ c)).trans (w8_arg11 m ρ c)

/-! ## After region 3: the result -/

/-- The result buffer after the run holds the reference's composed function of the twelve argument arrays. -/
theorem w12_v58 : W12 m ρ c (Proc.devRef .tc main_v58) = Cert.ReferenceIdeal.RefValue.refAll (F := Idealize.ShloMosaic.Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine ((W12_arr m ρ c 3).trans (final3 (V11 m ρ) c)).trans ?_
  show Cert.ReferenceIdeal.RefValue.refProj (F := Idealize.ShloMosaic.Ideal) (W11 m ρ c (Proc.devRef .tc main_v56)) (W11 m ρ c (Proc.devRef .tc main_v57)) (W11 m ρ c (Proc.devRef .tc main_arg11)) = _
  rw [w11_v56, w11_v57, w11_arg11]
  rfl

/-- The kernel program's run, its result named: every weakly fair execution terminates, nothing faulting, with the
    result at the reference's composed function of the launch arrays and every argument array as launched. -/
theorem run : θ_run defs (onTc (τ := τ) (main (F := Idealize.ShloMosaic.Ideal))) ⟨m, fun _ => 0, ρ⟩ (fun r => ∀ c : Dev nD,
      r.2.mem ((c.tc : Thread nD τ).loc main_v58) = Cert.ReferenceIdeal.RefValue.refAll (F := Idealize.ShloMosaic.Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (w12_v58 m ρ c), (h c).2⟩) (run_valued m ρ)

end Cert.KernelIdeal.Valued

end
-- ==== Proof.lean ====
/-
  The certificate of a graph network's forward pass: a bag-mean embedding of 50000 nodes, two graph-convolution
  layers over 600000 edges, a mean pool into 512 graphs and a linear projection to 10 classes.

  The kernel program runs four Pallas regions — the bag mean (50 blocks of 1000 rows), the dense part of each
  convolution layer (10 blocks of 5000 rows: two matrix products into zero accumulators, a bias, a positive part)
  and the projection (one block) — among stretches of host operations: the embedding gather, the neighbour mean
  (a gather at the edge sources, a scatter-add at the destinations, a quotient by the clipped in-degree), the mean
  pool and the weights' transposes.  The reference program computes everything on the host.

  At the ideal instance a float is an extended real, every operation exact and a change of float format the
  identity.  The host glue of the two programs is the same list of operations; each region's output array is ONE
  whole-array function of the arrays the region reads, and that function is the reference's stage, index by index:
  a lane sum with a zero accumulator against the host's sum with a zero initial value, a matrix product into a zero
  accumulator against the host's dot product, `max` with its arguments exchanged, a 0/1 weight printed through two
  integer conversions against one.  No law of arithmetic beyond commutativity of `max` joins the two sides, so the
  precondition is never opened.  The kernel's idealization rewrote nothing: the ledger is empty.

  The three frames: the two kernel programs' are the generated segment-chain frames; the reference's is its generated
  run with the result dropped.
-/
import proofs.«142027_j18442589569633_1_alg».proof.Defs
import proofs.«142027_j18442589569633_1_alg».proof.Proof.Gen.Kernel
import proofs.«142027_j18442589569633_1_alg».proof.Proof.Gen.Kernel.Frame
import proofs.«142027_j18442589569633_1_alg».proof.Proof.Gen.KernelIdeal
import proofs.«142027_j18442589569633_1_alg».proof.Proof.Gen.KernelIdeal.Frame
import proofs.«142027_j18442589569633_1_alg».proof.Proof.Gen.ReferenceIdeal
import proofs.«142027_j18442589569633_1_alg».proof.Proof.Gen.Pre_finite_inputs
import proofs.«142027_j18442589569633_1_alg».proof.Proof.Gen.ReferenceIdeal.Run
import proofs.«142027_j18442589569633_1_alg».proof.Proof.Gen.ReferenceIdeal.Read
import proofs.«142027_j18442589569633_1_alg».proof.Proof.RefStages
import proofs.«142027_j18442589569633_1_alg».proof.Proof.KChain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Idealize.ShloMosaic.Ideal) m ρ)

/-- The ideal pass rewrote no operation. -/
theorem preserves : Cert.preserves_Kernel_KernelIdeal := trivial

/-- Both programs end with the result at the same composed function of argument arrays that agree. -/
theorem algebraic : Cert.algebraic_KernelIdeal_ReferenceIdeal := by
  intro m ρ m' ρ' _ hagree
  refine ⟨fun c => Cert.ReferenceIdeal.RefValue.refAll (F := Idealize.ShloMosaic.Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Valued.run m ρ, ?_⟩
  refine (θ_run Cert.ReferenceIdeal.defs _ _).mono (fun _ h c => ⟨(h c).1.trans ?_, (h c).2⟩)
    (Cert.ReferenceIdeal.Value.run (F := Idealize.ShloMosaic.Ideal) m' ρ')
  obtain ⟨h0, h1, h2, h3, h4, h5, h6, h7, h8, h9, h10, h11⟩ := hagree c
  rw [Cert.ReferenceIdeal.Read.val_main_v88_eq, Cert.ReferenceIdeal.RefValue.v88_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
